-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x1 : Shape := ⟨2, ![16384, 1]⟩
abbrev S512x512 : Shape := ⟨2, ![512, 512]⟩
abbrev S512 : Shape := ⟨1, ![512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x1 : S_.BroadcastsInDim S16384x1 (![] : Fin 0 → Fin S16384x1.rank)
  reducesTo_S16384x1_S_d0_1 : S16384x1.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_arg11 : FVec F S512 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  main_v58

def fn_part2 {F : FTy → Type} [FloatOps F] (main_arg7 : FVec F S512x512 .f32) (main_arg8 : FVec F S512 .f32) (main_arg9 : FVec F S512x512 .f32) (main_arg10 : FVec F S512x512 .f32) (main_arg11 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_v48 main_v49 main_v50

def fn_part1 {F : FTy → Type} [FloatOps F] (main_arg4 : FVec F S512x512 .f32) (main_arg5 : FVec F S512 .f32) (main_arg6 : FVec F S512x512 .f32) (main_arg7 : FVec F S512x512 .f32) (main_arg8 : FVec F S512 .f32) (main_arg9 : FVec F S512x512 .f32) (main_arg10 : FVec F S512x512 .f32) (main_arg11 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S16384x512 .f32) (main_arg1 : FVec F S16384x1 .f32) (main_arg2 : FVec F S16384x512 .f32) (main_arg3 : FVec F S512x512 .f32) (main_arg4 : FVec F S512x512 .f32) (main_arg5 : FVec F S512 .f32) (main_arg6 : FVec F S512x512 .f32) (main_arg7 : FVec F S512x512 .f32) (main_arg8 : FVec F S512 .f32) (main_arg9 : FVec F S512x512 .f32) (main_arg10 : FVec F S512x512 .f32) (main_arg11 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x1 .f32 := Host.absf main_arg1
  let main_cst_0 : FVec F S_ .f32 := constant S_ .f32 0x7F800000#32
  let main_v5 : FVec F S16384x1 .f32 := broadcastInDim S16384x1 ![] bcast_S_S16384x1 main_cst_0
  let main_v6 : IVec S16384x1 1 := cmpf .olt main_v4 main_v5
  let main_c_1 : IVec S_ 1 := constantI S_ 1 1#1
  let main_v7 : IVec S_ 1 := (fun x v => Host.reduce IntOp.andi x v reducesTo_S16384x1_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_arg11 main_v13 main_v16
-- ==== Kernel.lean ====
abbrev S16384x512 : Shape := ⟨2, ![16384, 512]⟩
abbrev S16384x1 : Shape := ⟨2, ![16384, 1]⟩
abbrev S512x512 : Shape := ⟨2, ![512, 512]⟩
abbrev S512 : Shape := ⟨1, ![512]⟩
abbrev S512x1536 : Shape := ⟨2, ![512, 1536]⟩
abbrev S1536 : Shape := ⟨1, ![1536]⟩
abbrev S1x1536 : Shape := ⟨2, ![1, 1536]⟩
abbrev S1024x512 : Shape := ⟨2, ![1024, 512]⟩
abbrev S1024x1 : Shape := ⟨2, ![1024, 1]⟩
abbrev S1024x1536 : Shape := ⟨2, ![1024, 1536]⟩
abbrev S1x512 : Shape := ⟨2, ![1, 512]⟩

abbrev nBuf : Space → Nat
  | .hbm => 17
  | .vmem => 11
  | .smem => 0
  | _ => 0

abbrev bufTy : (tb : Table) → Fin (tcTables nBuf tb) → BufTy
  | .hbm, ⟨0, _⟩ => ⟨S16384x512, .f32⟩
  | .hbm, ⟨1, _⟩ => ⟨S16384x1, .f32⟩
  | .hbm, ⟨2, _⟩ => ⟨S16384x512, .f32⟩
  | .hbm, ⟨3, _⟩ => ⟨S512x512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512x512, .f32⟩
  | .hbm, ⟨11, _⟩ => ⟨S512, .f32⟩
  | .hbm, ⟨12, _⟩ => ⟨S512x1536, .f32⟩
  | .hbm, ⟨13, _⟩ => ⟨S512x1536, .f32⟩
  | .hbm, ⟨14, _⟩ => ⟨S1536, .f32⟩
  | .hbm, ⟨15, _⟩ => ⟨S1x1536, .f32⟩
  | .hbm, ⟨16, _⟩ => ⟨S16384x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1, .f32⟩
  | .local _ .vmem, ⟨5, _⟩ => ⟨S1024x1, .f32⟩
  | .local _ .vmem, ⟨6, _⟩ => ⟨S512x1536, .f32⟩
  | .local _ .vmem, ⟨7, _⟩ => ⟨S512x1536, .f32⟩
  | .local _ .vmem, ⟨8, _⟩ => ⟨S1x1536, .f32⟩
  | .local _ .vmem, ⟨9, _⟩ => ⟨S1024x512, .f32⟩
  | .local _ .vmem, ⟨10, _⟩ => ⟨S1024x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S512x512_S512x512_S512x512_S512x1536_d1 : Shape.Concatenates [S512x512, S512x512, S512x512] S512x1536 1
  concatenates_S512_S512_S512_S1536_d0 : Shape.Concatenates [S512, S512, S512] S1536 0
  shapeCasts_S1536_S1x1536 : S1536.ShapeCasts S1x1536
  inb_S1024x512_S1024x512_0_0 : ∀ a, (![0, 0] : Fin 2 → Nat) a + S1024x512.size a ≤ S1024x512.size a
  h_S1024x512 : 0 < S1024x512.numel
  inb_S1024x1_S1024x1_0_0 : ∀ a, (![0, 0] : Fin 2 → Nat) a + S1024x1.size a ≤ S1024x1.size a
  h_S1024x1 : 0 < S1024x1.numel
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  slices_S1024x1536_o0_0_S1024x512 : S1024x1536.Slices ![0, 0] S1024x512
  slices_S1024x1536_o0_512_S1024x512 : S1024x1536.Slices ![0, 512] S1024x512
  slices_S1024x1536_o0_1024_S1024x512 : S1024x1536.Slices ![0, 1024] S1024x512
  slices_S1x1536_o0_0_S1x512 : S1x1536.Slices ![0, 0] S1x512
  slices_S1x1536_o0_512_S1x512 : S1x1536.Slices ![0, 512] S1x512
  slices_S1x1536_o0_1024_S1x512 : S1x1536.Slices ![0, 1024] S1x512
  broadcasts_S1x512_S1024x512 : S1x512.Broadcasts S1024x512
  broadcasts_S1024x1_S1024x512 : S1024x1.Broadcasts S1024x512
  dot_S1024x512_S512x1536_S1024x1536_1_0_0_1_n_n_wf : DotDims.WF S1024x512 S512x1536 S1024x1536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x512.size a
  hwx0_1 : ∀ i : grid0.Coords, EltTy.bits .f32 = 32 ∨ (Rect.block (s := S16384x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1536.size a ≤ S512x1536.size a
  hwx0_3 : ∀ i : grid0.Coords, EltTy.bits .f32 = 32 ∨ (Rect.block (s := S512x1536) S512x1536.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1536.size a ≤ S512x1536.size a
  hwx0_4 : ∀ i : grid0.Coords, EltTy.bits .f32 = 32 ∨ (Rect.block (s := S512x1536) S512x1536.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1536.size a ≤ S1x1536.size a
  hwx0_5 : ∀ i : grid0.Coords, EltTy.bits .f32 = 32 ∨ (Rect.block (s := S1x1536) S1x1536.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S16384x512.size a
  hwx0_6 : ∀ i : grid0.Coords, EltTy.bits .f32 = 32 ∨ (Rect.block (s := S16384x512) S1024x512.size (cc0_transform_6 i) (hinb0_6 i)).WholeWords (EltTy.packing .f32)

variable [Facts₀]

def dot_S1024x512_S512x1536_S1024x1536_1_0_0_1_n_n : DotDims S1024x512 S512x1536 S1024x1536 where
  lhsContracting := [1]
  rhsContracting := [0]
  lhsNonContracting := [0]
  rhsNonContracting := [1]
  lhsBatch := []
  rhsBatch := []
  wf := dot_S1024x512_S512x1536_S1024x1536_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x1536.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x1536.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x512 : Shape := ⟨2, ![16384, 512]⟩
abbrev S16384x1 : Shape := ⟨2, ![16384, 1]⟩
abbrev S512x512 : Shape := ⟨2, ![512, 512]⟩
abbrev S512 : Shape := ⟨1, ![512]⟩
abbrev S1x512 : Shape := ⟨2, ![1, 512]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x1, .f32⟩
  | .hbm, ⟨2, _⟩ => ⟨S16384x512, .f32⟩
  | .hbm, ⟨3, _⟩ => ⟨S512x512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512x512, .f32⟩
  | .hbm, ⟨11, _⟩ => ⟨S512, .f32⟩
  | .hbm, ⟨12, _⟩ => ⟨S16384x512, .f32⟩
  | .hbm, ⟨13, _⟩ => ⟨S16384x512, .f32⟩
  | .hbm, ⟨14, _⟩ => ⟨S16384x512, .f32⟩
  | .hbm, ⟨15, _⟩ => ⟨S1x512, .f32⟩
  | .hbm, ⟨16, _⟩ => ⟨S16384x512, .f32⟩
  | .hbm, ⟨17, _⟩ => ⟨S16384x512, .f32⟩
  | .hbm, ⟨18, _⟩ => ⟨S16384x512, .f32⟩
  | .hbm, ⟨19, _⟩ => ⟨S16384x512, .f32⟩
  | .hbm, ⟨20, _⟩ => ⟨S_, .f32⟩
  | .hbm, ⟨21, _⟩ => ⟨S16384x512, .f32⟩
  | .hbm, ⟨22, _⟩ => ⟨S16384x512, .f32⟩
  | .hbm, ⟨23, _⟩ => ⟨S_, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S16384x512, .f32⟩
  | .hbm, ⟨29, _⟩ => ⟨S16384x512, .f32⟩
  | .hbm, ⟨30, _⟩ => ⟨S16384x512, .f32⟩
  | .hbm, ⟨31, _⟩ => ⟨S1x512, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S_, .f32⟩
  | .hbm, ⟨37, _⟩ => ⟨S16384x512, .f32⟩
  | .hbm, ⟨38, _⟩ => ⟨S16384x512, .f32⟩
  | .hbm, ⟨39, _⟩ => ⟨S_, .f32⟩
  | .hbm, ⟨40, _⟩ => ⟨S16384x512, .f32⟩
  | .hbm, ⟨41, _⟩ => ⟨S16384x512, .f32⟩
  | .hbm, ⟨42, _⟩ => ⟨S16384x512, .f32⟩
  | .hbm, ⟨43, _⟩ => ⟨S16384x512, .f32⟩
  | .hbm, ⟨44, _⟩ => ⟨S16384x512, .f32⟩
  | .hbm, ⟨45, _⟩ => ⟨S16384x512, .f32⟩
  | .hbm, ⟨46, _⟩ => ⟨S1x512, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S_, .f32⟩
  | .hbm, ⟨51, _⟩ => ⟨S16384x512, .f32⟩
  | .hbm, ⟨52, _⟩ => ⟨S16384x512, .f32⟩
  | .hbm, ⟨53, _⟩ => ⟨S16384x512, .f32⟩
  | .hbm, ⟨54, _⟩ => ⟨S16384x512, .f32⟩
  | .hbm, ⟨55, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_1 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_3 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  bcast_S16384x1_S16384x512_0_1 : S16384x1.BroadcastsInDim S16384x512 (![0, 1] : Fin 2 → Fin S16384x512.rank)
  dot_S16384x512_S512x512_S16384x512_1_0_0_1_n_n_wf : DotDims.WF S16384x512 S512x512 S16384x512 [1] [0] [0] [1] [] []

variable [Facts₀]

def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf

class Facts : Prop extends Facts₀ where

variable [Facts]
-- ==== Proof.BitsFrame.lean ====
/-
  The frame of this program: @main's four host lines (three concatenations of weight and bias arrays along their
  output axis and one reshape of the bias row) run before the one kernel region, whose grid of 16 points walks
  blocks of 1024 batch rows. At a point the body loads its six input blocks whole (a block of x, of the hidden
  state, of the attention column; the two fused weight matrices and the bias row, the same at every point),
  computes one block of the result and stores it whole. So after the body the output's staging buffer holds the
  body's one payload of the six input blocks, every input buffer holds its block still, and the pipeline's
  write-backs leave the twelve argument arrays as they were launched: no host line writes an argument, three
  arguments are staged as inputs and come back unchanged, nine are touched by no window.
-/
import proofs.«107161_j64596308132456_2_alg».proof.Proof.Gen.Kernel.Launch
import proofs.«107161_j64596308132456_2_alg».proof.Proof.Gen.Kernel.Skeleton
import proofs.«107161_j64596308132456_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the four host lines. -/
abbrev V (c : Dev nD) (b : Ref sig .tc) : Buf (Elt F) ((c : Thread nD τ).loc b) :=
  StableHlo.after hostOps0 (fun b => m (c, b)) b

/-- No host line allocates. -/
theorem hostOps0_fresh : (hostOps0 : List (HloOp τ sig (Elt F))).Forall fun op => op.fresh = ∅ := by
  simp only [List.Forall]; repeat' constructor

/-- @main is its host lines, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host lines write `main_v0`, `main_v1`, `main_v2`, `main_v3` only: a buffer that is none of these is found as launched. -/
theorem V_of_ne (c : Dev nD) (b : Ref sig .tc) (h0 : b ≠ main_v0) (h1 : b ≠ main_v1) (h2 : b ≠ main_v2) (h3 : b ≠ main_v3) :
    V m c b = m ((c : Thread nD τ).loc b) :=
  StableHlo.after_of_forall_not_mem (b := Proc.devRef .tc b) _ _ (List.forall_iff_forall_mem.mp (by
    simp only [hostOps0, List.Forall, StableHlo.nary_writes, StableHlo.reshape_writes, Finset.mem_singleton]
    exact ⟨StableHlo.devRef_ne_of_ne h0, StableHlo.devRef_ne_of_ne h1, StableHlo.devRef_ne_of_ne h2, StableHlo.devRef_ne_of_ne h3⟩))

theorem V_main_arg0 (c : Dev nD) : V m c main_arg0 = m ((c : Thread nD τ).loc main_arg0) :=
  V_of_ne m c main_arg0 (by decide) (by decide) (by decide) (by decide)
theorem V_main_arg1 (c : Dev nD) : V m c main_arg1 = m ((c : Thread nD τ).loc main_arg1) :=
  V_of_ne m c main_arg1 (by decide) (by decide) (by decide) (by decide)
theorem V_main_arg2 (c : Dev nD) : V m c main_arg2 = m ((c : Thread nD τ).loc main_arg2) :=
  V_of_ne m c main_arg2 (by decide) (by decide) (by decide) (by decide)
theorem V_main_arg3 (c : Dev nD) : V m c main_arg3 = m ((c : Thread nD τ).loc main_arg3) :=
  V_of_ne m c main_arg3 (by decide) (by decide) (by decide) (by decide)
theorem V_main_arg4 (c : Dev nD) : V m c main_arg4 = m ((c : Thread nD τ).loc main_arg4) :=
  V_of_ne m c main_arg4 (by decide) (by decide) (by decide) (by decide)
theorem V_main_arg5 (c : Dev nD) : V m c main_arg5 = m ((c : Thread nD τ).loc main_arg5) :=
  V_of_ne m c main_arg5 (by decide) (by decide) (by decide) (by decide)
theorem V_main_arg6 (c : Dev nD) : V m c main_arg6 = m ((c : Thread nD τ).loc main_arg6) :=
  V_of_ne m c main_arg6 (by decide) (by decide) (by decide) (by decide)
theorem V_main_arg7 (c : Dev nD) : V m c main_arg7 = m ((c : Thread nD τ).loc main_arg7) :=
  V_of_ne m c main_arg7 (by decide) (by decide) (by decide) (by decide)
theorem V_main_arg8 (c : Dev nD) : V m c main_arg8 = m ((c : Thread nD τ).loc main_arg8) :=
  V_of_ne m c main_arg8 (by decide) (by decide) (by decide) (by decide)
theorem V_main_arg9 (c : Dev nD) : V m c main_arg9 = m ((c : Thread nD τ).loc main_arg9) :=
  V_of_ne m c main_arg9 (by decide) (by decide) (by decide) (by decide)
theorem V_main_arg10 (c : Dev nD) : V m c main_arg10 = m ((c : Thread nD τ).loc main_arg10) :=
  V_of_ne m c main_arg10 (by decide) (by decide) (by decide) (by decide)
theorem V_main_arg11 (c : Dev nD) : V m c main_arg11 = m ((c : Thread nD τ).loc main_arg11) :=
  V_of_ne m c main_arg11 (by decide) (by decide) (by decide) (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not (an unfetched window's block
    index has not moved), for any proof data over the region-entry arrays whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not (an unfetched window's block
    index has not moved), for any proof data over the region-entry arrays whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not (an unfetched window's block
    index has not moved), for any proof data over the region-entry arrays whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not (an unfetched window's block
    index has not moved), for any proof data over the region-entry arrays whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not (an unfetched window's block
    index has not moved), for any proof data over the region-entry arrays whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not (an unfetched window's block
    index has not moved), for any proof data over the region-entry arrays whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- For proof data over the region-entry arrays, a run to the pipeline's post — a staged input back at its entry
    contents, an unstaged buffer untouched — leaves every argument array as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 0).trans (((dats 0 c).arrAt_in 0 rfl _).trans ((hA c 0).trans (V_main_arg0 m c))),
      ((h c).1 2).trans (((dats 0 c).arrAt_in 2 rfl _).trans ((hA c 2).trans (V_main_arg1 m c))),
      ((h c).1 1).trans (((dats 0 c).arrAt_in 1 rfl _).trans ((hA c 1).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) h

/-! ## The body's accesses: each buffer whole -/

abbrev rRows : Rect S1024x512 := Rect.unit (s := S1024x512) ![0, 0] S1024x512.size inb_S1024x512_S1024x512_0_0
abbrev rCol : Rect S1024x1 := Rect.unit (s := S1024x1) ![0, 0] S1024x1.size inb_S1024x1_S1024x1_0_0
abbrev rMat : Rect S512x1536 := Rect.unit (s := S512x1536) ![0, 0] S512x1536.size inb_S512x1536_S512x1536_0_0
abbrev rBias : Rect S1x1536 := Rect.unit (s := S1x1536) ![0, 0] S1x1536.size inb_S1x1536_S1x1536_0_0

/-! ## What the body leaves in the output window's buffer -/

/-- The output's staging buffer after the body: its one whole store, of the payload of the six input blocks. -/
def out6 (x0 : Vec F S1024x512 .f32) (x1 : Vec F S1024x512 .f32) (x2 : Vec F S1024x1 .f32) (x3 : Vec F S512x1536 .f32)
    (x4 : Vec F S512x1536 .f32) (x5 : Vec F S1x1536 .f32) : Vec F S1024x512 .f32 :=
  View.canon [⟨rRows, k0_pay1 (View.ld x0 rRows) (View.ld x1 rRows) (View.ld x2 rCol) (View.ld x3 rMat) (View.ld x4 rMat) (View.ld x5 rBias)⟩]

/-- The one store covers the buffer. -/
theorem cover6 (p0 : Vec F S1024x512 .f32) (y : S1024x512.Idx) :
    ∃ pc ∈ ([⟨rRows, p0⟩] : List (View.Piece (Elt F) S1024x512 .f32)), y ∈ pc.1.set :=
  View.cover_of_tiled [⟨rRows, p0⟩] S1024x512.size (by rfl) y

/-! ## The body's triple -/

set_option maxHeartbeats 4000000 in
/-- On whole staging memrefs, the inputs' at contents `xW` and the output's at anything, the body runs to the
    continuation with the inputs' as they were and the output's at `out6` of the inputs'. -/
theorem sound_kernel (c : Dev nD) (E : Set ℕ) (i : grid0.Coords)
    (arg1 : Memref sig .tc .vmem S1024x512 .f32) (harg1 : arg1.IsWhole) (arg2 : Memref sig .tc .vmem S1024x512 .f32) (harg2 : arg2.IsWhole)
    (arg3 : Memref sig .tc .vmem S1024x1 .f32) (harg3 : arg3.IsWhole) (arg4 : Memref sig .tc .vmem S512x1536 .f32) (harg4 : arg4.IsWhole)
    (arg5 : Memref sig .tc .vmem S512x1536 .f32) (harg5 : arg5.IsWhole) (arg6 : Memref sig .tc .vmem S1x1536 .f32) (harg6 : arg6.IsWhole)
    (arg7 : Memref sig .tc .vmem S1024x512 .f32) (harg7 : arg7.IsWhole)
    (x0 : Vec F S1024x512 .f32) (x1 : Vec F S1024x512 .f32) (x2 : Vec F S1024x1 .f32) (x3 : Vec F S512x1536 .f32)
    (x4 : Vec F S512x1536 .f32) (x5 : Vec F S1x1536 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out6 x0 x1 x2 x3 x4 x5)) -∗ K ⟨⟩))
      ⊢ wp frame (wpE (defs₀ (F := F)) Variants.none c none) E
          (cc0__augru_kernel i arg1 harg1 arg2 harg2 arg3 harg3 arg4 harg4 arg5 harg5 arg6 harg6 arg7 harg7) K := by
  simp only [cc0__augru_kernel_eq_skeleton]; unfold cc0__augru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6 _)

/-! ## The pipeline's proof data -/

/-- The proof data on core `c`: the arrays as the region finds them; after the body at point `t` each input's buffer
    at its block and the output's at `out6` of the input blocks; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = out6 (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so `sound_kernel` applies; the invariant and the core's
    `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every array of the pipeline ending at what the write-backs of
    the proof data's blocks leave and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main terminates, faults nowhere, and leaves the twelve argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.Kernel.Fr

end
-- ==== Proof.IdealFrame.lean ====
/-
  The frame of this program: @main's four host lines (three concatenations of weight and bias arrays along their
  output axis and one reshape of the bias row) run before the one kernel region, whose grid of 16 points walks
  blocks of 1024 batch rows. At a point the body loads its six input blocks whole (a block of x, of the hidden
  state, of the attention column; the two fused weight matrices and the bias row, the same at every point),
  computes one block of the result and stores it whole. So after the body the output's staging buffer holds the
  body's one payload of the six input blocks, every input buffer holds its block still, and the pipeline's
  write-backs leave the twelve argument arrays as they were launched: no host line writes an argument, three
  arguments are staged as inputs and come back unchanged, nine are touched by no window.
-/
import proofs.«107161_j64596308132456_2_alg».proof.Proof.Gen.KernelIdeal.Launch
import proofs.«107161_j64596308132456_2_alg».proof.Proof.Gen.KernelIdeal.Skeleton
import proofs.«107161_j64596308132456_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the four host lines. -/
abbrev V (c : Dev nD) (b : Ref sig .tc) : Buf (Elt F) ((c : Thread nD τ).loc b) :=
  StableHlo.after hostOps0 (fun b => m (c, b)) b

/-- No host line allocates. -/
theorem hostOps0_fresh : (hostOps0 : List (HloOp τ sig (Elt F))).Forall fun op => op.fresh = ∅ := by
  simp only [List.Forall]; repeat' constructor

/-- @main is its host lines, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host lines write `main_v0`, `main_v1`, `main_v2`, `main_v3` only: a buffer that is none of these is found as launched. -/
theorem V_of_ne (c : Dev nD) (b : Ref sig .tc) (h0 : b ≠ main_v0) (h1 : b ≠ main_v1) (h2 : b ≠ main_v2) (h3 : b ≠ main_v3) :
    V m c b = m ((c : Thread nD τ).loc b) :=
  StableHlo.after_of_forall_not_mem (b := Proc.devRef .tc b) _ _ (List.forall_iff_forall_mem.mp (by
    simp only [hostOps0, List.Forall, StableHlo.nary_writes, StableHlo.reshape_writes, Finset.mem_singleton]
    exact ⟨StableHlo.devRef_ne_of_ne h0, StableHlo.devRef_ne_of_ne h1, StableHlo.devRef_ne_of_ne h2, StableHlo.devRef_ne_of_ne h3⟩))

theorem V_main_arg0 (c : Dev nD) : V m c main_arg0 = m ((c : Thread nD τ).loc main_arg0) :=
  V_of_ne m c main_arg0 (by decide) (by decide) (by decide) (by decide)
theorem V_main_arg1 (c : Dev nD) : V m c main_arg1 = m ((c : Thread nD τ).loc main_arg1) :=
  V_of_ne m c main_arg1 (by decide) (by decide) (by decide) (by decide)
theorem V_main_arg2 (c : Dev nD) : V m c main_arg2 = m ((c : Thread nD τ).loc main_arg2) :=
  V_of_ne m c main_arg2 (by decide) (by decide) (by decide) (by decide)
theorem V_main_arg3 (c : Dev nD) : V m c main_arg3 = m ((c : Thread nD τ).loc main_arg3) :=
  V_of_ne m c main_arg3 (by decide) (by decide) (by decide) (by decide)
theorem V_main_arg4 (c : Dev nD) : V m c main_arg4 = m ((c : Thread nD τ).loc main_arg4) :=
  V_of_ne m c main_arg4 (by decide) (by decide) (by decide) (by decide)
theorem V_main_arg5 (c : Dev nD) : V m c main_arg5 = m ((c : Thread nD τ).loc main_arg5) :=
  V_of_ne m c main_arg5 (by decide) (by decide) (by decide) (by decide)
theorem V_main_arg6 (c : Dev nD) : V m c main_arg6 = m ((c : Thread nD τ).loc main_arg6) :=
  V_of_ne m c main_arg6 (by decide) (by decide) (by decide) (by decide)
theorem V_main_arg7 (c : Dev nD) : V m c main_arg7 = m ((c : Thread nD τ).loc main_arg7) :=
  V_of_ne m c main_arg7 (by decide) (by decide) (by decide) (by decide)
theorem V_main_arg8 (c : Dev nD) : V m c main_arg8 = m ((c : Thread nD τ).loc main_arg8) :=
  V_of_ne m c main_arg8 (by decide) (by decide) (by decide) (by decide)
theorem V_main_arg9 (c : Dev nD) : V m c main_arg9 = m ((c : Thread nD τ).loc main_arg9) :=
  V_of_ne m c main_arg9 (by decide) (by decide) (by decide) (by decide)
theorem V_main_arg10 (c : Dev nD) : V m c main_arg10 = m ((c : Thread nD τ).loc main_arg10) :=
  V_of_ne m c main_arg10 (by decide) (by decide) (by decide) (by decide)
theorem V_main_arg11 (c : Dev nD) : V m c main_arg11 = m ((c : Thread nD τ).loc main_arg11) :=
  V_of_ne m c main_arg11 (by decide) (by decide) (by decide) (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not (an unfetched window's block
    index has not moved), for any proof data over the region-entry arrays whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not (an unfetched window's block
    index has not moved), for any proof data over the region-entry arrays whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not (an unfetched window's block
    index has not moved), for any proof data over the region-entry arrays whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not (an unfetched window's block
    index has not moved), for any proof data over the region-entry arrays whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not (an unfetched window's block
    index has not moved), for any proof data over the region-entry arrays whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not (an unfetched window's block
    index has not moved), for any proof data over the region-entry arrays whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- For proof data over the region-entry arrays, a run to the pipeline's post — a staged input back at its entry
    contents, an unstaged buffer untouched — leaves every argument array as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 0).trans (((dats 0 c).arrAt_in 0 rfl _).trans ((hA c 0).trans (V_main_arg0 m c))),
      ((h c).1 2).trans (((dats 0 c).arrAt_in 2 rfl _).trans ((hA c 2).trans (V_main_arg1 m c))),
      ((h c).1 1).trans (((dats 0 c).arrAt_in 1 rfl _).trans ((hA c 1).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) h

/-! ## The body's accesses: each buffer whole -/

abbrev rRows : Rect S1024x512 := Rect.unit (s := S1024x512) ![0, 0] S1024x512.size inb_S1024x512_S1024x512_0_0
abbrev rCol : Rect S1024x1 := Rect.unit (s := S1024x1) ![0, 0] S1024x1.size inb_S1024x1_S1024x1_0_0
abbrev rMat : Rect S512x1536 := Rect.unit (s := S512x1536) ![0, 0] S512x1536.size inb_S512x1536_S512x1536_0_0
abbrev rBias : Rect S1x1536 := Rect.unit (s := S1x1536) ![0, 0] S1x1536.size inb_S1x1536_S1x1536_0_0

/-! ## What the body leaves in the output window's buffer -/

/-- The output's staging buffer after the body: its one whole store, of the payload of the six input blocks. -/
def out6 (x0 : Vec F S1024x512 .f32) (x1 : Vec F S1024x512 .f32) (x2 : Vec F S1024x1 .f32) (x3 : Vec F S512x1536 .f32)
    (x4 : Vec F S512x1536 .f32) (x5 : Vec F S1x1536 .f32) : Vec F S1024x512 .f32 :=
  View.canon [⟨rRows, k0_pay1 (View.ld x0 rRows) (View.ld x1 rRows) (View.ld x2 rCol) (View.ld x3 rMat) (View.ld x4 rMat) (View.ld x5 rBias)⟩]

/-- The one store covers the buffer. -/
theorem cover6 (p0 : Vec F S1024x512 .f32) (y : S1024x512.Idx) :
    ∃ pc ∈ ([⟨rRows, p0⟩] : List (View.Piece (Elt F) S1024x512 .f32)), y ∈ pc.1.set :=
  View.cover_of_tiled [⟨rRows, p0⟩] S1024x512.size (by rfl) y

/-! ## The body's triple -/

set_option maxHeartbeats 4000000 in
/-- On whole staging memrefs, the inputs' at contents `xW` and the output's at anything, the body runs to the
    continuation with the inputs' as they were and the output's at `out6` of the inputs'. -/
theorem sound_kernel (c : Dev nD) (E : Set ℕ) (i : grid0.Coords)
    (arg1 : Memref sig .tc .vmem S1024x512 .f32) (harg1 : arg1.IsWhole) (arg2 : Memref sig .tc .vmem S1024x512 .f32) (harg2 : arg2.IsWhole)
    (arg3 : Memref sig .tc .vmem S1024x1 .f32) (harg3 : arg3.IsWhole) (arg4 : Memref sig .tc .vmem S512x1536 .f32) (harg4 : arg4.IsWhole)
    (arg5 : Memref sig .tc .vmem S512x1536 .f32) (harg5 : arg5.IsWhole) (arg6 : Memref sig .tc .vmem S1x1536 .f32) (harg6 : arg6.IsWhole)
    (arg7 : Memref sig .tc .vmem S1024x512 .f32) (harg7 : arg7.IsWhole)
    (x0 : Vec F S1024x512 .f32) (x1 : Vec F S1024x512 .f32) (x2 : Vec F S1024x1 .f32) (x3 : Vec F S512x1536 .f32)
    (x4 : Vec F S512x1536 .f32) (x5 : Vec F S1x1536 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out6 x0 x1 x2 x3 x4 x5)) -∗ K ⟨⟩))
      ⊢ wp frame (wpE (defs₀ (F := F)) Variants.none c none) E
          (cc0__augru_kernel i arg1 harg1 arg2 harg2 arg3 harg3 arg4 harg4 arg5 harg5 arg6 harg6 arg7 harg7) K := by
  simp only [cc0__augru_kernel_eq_skeleton]; unfold cc0__augru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6 _)

/-! ## The pipeline's proof data -/

/-- The proof data on core `c`: the arrays as the region finds them; after the body at point `t` each input's buffer
    at its block and the output's at `out6` of the input blocks; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = out6 (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so `sound_kernel` applies; the invariant and the core's
    `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every array of the pipeline ending at what the write-backs of
    the proof data's blocks leave and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main terminates, faults nowhere, and leaves the twelve argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.KernelIdeal.Fr

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.LibColBroadcast.lean ====
/-
  A column broadcast across the columns, read at an index.

  An `a × 1` column broadcast (as a vector broadcast) to `a × b` reads, at `(p, q)`, the column at `p`: the row
  coordinate is kept (the operand's axis 0 has the result's extent), the column coordinate is dropped (the operand's axis 1
  is a unit axis). For any element type and any extents; the companion of the row forms.
-/
import Idealize.ShloMosaic.Lib.Pipeline.Value
import Idealize.ShloMosaic.Lib.ValueIdx

noncomputable section

namespace Cert.Lib.Cols

open Idealize.ShloMosaic Idealize.ShloMosaic.ValueIdx

variable {a b : Nat}

/-- An `a × 1` column broadcast across `b` columns reads, at `(p, q)`, the column at `p`. -/
theorem bcastCol_apply {α : Type} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else q.val
    rw [if_pos rfl]

/-- A length-`a` vector reshaped to an `a × 1` column reads, at `(p, 0)`, the vector at `p`. -/
theorem col_apply {α : Type} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) :=
  shapeCast_apply v h _ _ (by
    rw [Shape.rowMajor_val_two, Shape.rowMajor_val_one]
    show p.val = p.val * 1 + 0
    omega)

/-- A length-`a` vector broadcast along dimension 0 to an `a × 1` column reads, at `(p, 0)`, the vector at `p`. -/
theorem dimVec_apply {α : Type} (v : (⟨1, ![a]⟩ : Shape).Idx → α)
    (h : (⟨1, ![a]⟩ : Shape).BroadcastsInDim ⟨2, ![a, 1]⟩ ![0]) (p : Fin a) :
    broadcastInDim ⟨2, ![a, 1]⟩ ![0] h v (ix2 p (0 : Fin 1)) = v (ix1 p) :=
  broadcastInDim_apply _ h v (ix2 p (0 : Fin 1)) (ix1 p) fun ax => by
    match ax with
    | ⟨0, _⟩ =>
      show p.val = if a = 1 then 0 else p.val
      split
      · have := p.isLt; omega
      · rfl

end Cert.Lib.Cols

end
-- ==== Proof.KernelPayload.lean ====
/-
  The body's one payload, read at an entry of the block, on the extended reals.

  The body multiplies the 1024 × 512 blocks of x and of the hidden state by the two fused 512 × 1536 weight matrices
  and cuts each product into three 1024 × 512 slices, at column offsets 0, 512 and 1024: the update, reset and
  candidate pre-activations. A slice of a product at (r, q) is the row r of the left operand against column
  offset + q of the fused matrix; a slice of the 1 × 1536 bias row broadcast down the rows reads the bias at
  offset + q; the 1024 × 1 attention column broadcast across the columns reads the column at r. Every other operation
  is pointwise. So at (r, q) the payload is
    h + (att · σ(x·W[:, q] + h·U[:, q] + b[q])) · (tanh(x·W[:, 1024+q] + σ(x·W[:, 512+q] + h·U[:, 512+q] + b[512+q]) · (h·U[:, 1024+q]) + b[1024+q]) − h).
-/
import proofs.«107161_j64596308132456_2_alg».proof.Proof.Gen.KernelIdeal.Skeleton
import proofs.«107161_j64596308132456_2_alg».proof.Proof.LibPlainDot
import proofs.«107161_j64596308132456_2_alg».proof.Proof.LibRowBroadcasts
import proofs.«107161_j64596308132456_2_alg».proof.Proof.LibColBroadcast
import Idealize.ShloMosaic.Lib.Pipeline.Value
import Idealize.ShloMosaic.Lib.ValueIdx
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- Column `off + q` of a fused 1536-wide array. -/
def colAt (off : Nat) (hoff : off + 512 ≤ 1536) (q : Fin 512) : Fin 1536 := ⟨off + q.val, by have := q.isLt; omega⟩

/-- Row `r` of a 1024 × 512 block against column `j` of a fused 512 × 1536 matrix. -/
def rowDot (x : FVec Ideal S1024x512 .f32) (w : FVec Ideal S512x1536 .f32) (r : Fin 1024) (j : Fin 1536) : EReal :=
  ∑ k : Fin 512, x (ix2 r k) * w (ix2 k j)

/-- A 512-wide slice, at column offset `off`, of the product with a fused matrix: at (r, q) the row against column `off + q`. -/
theorem mm_slice (x : FVec Ideal S1024x512 .f32) (w : FVec Ideal S512x1536 .f32) (off : Nat) (hoff : off + 512 ≤ 1536)
    (hc : S512x1536.ShapeCasts S512x1536) (hs : S1024x1536.Slices ![0, off] S1024x512) (r : Fin 1024) (q : Fin 512) :
    extractStridedSlice S1024x512 ![0, off]
        (matmul dot_S1024x512_S512x1536_S1024x1536_1_0_0_1_n_n (some .fp32) x (shapeCast S512x1536 w hc)
          (constant S1024x1536 .f32 0x00000000#32)) hs (ix2 r q)
      = rowDot x w r (colAt off hoff q) := by
  rw [shapeCast_self]
  refine (extractStridedSlice_apply ![0, off] _ hs (ix2 r q) (ix2 r (colAt off hoff q)) fun a => ?_).trans ?_
  · match a with
    | ⟨0, _⟩ => show r.val = 0 + r.val; omega
    | ⟨1, _⟩ => rfl
  · exact Cert.Lib.PlainDot.matmul_zero_apply dot_S1024x512_S512x1536_S1024x1536_1_0_0_1_n_n_wf (some .fp32) x w r (colAt off hoff q)

/-- A 512-wide slice of the bias row, broadcast down the rows: at (r, q) the bias at `off + q`. -/
theorem bias_slice (v : FVec Ideal S1x1536 .f32) (off : Nat) (hoff : off + 512 ≤ 1536)
    (hc : S1x1536.ShapeCasts S1x1536) (hs : S1x1536.Slices ![0, off] S1x512) (hb : S1x512.Broadcasts S1024x512)
    (r : Fin 1024) (q : Fin 512) :
    broadcastTo S1024x512 (extractStridedSlice S1x512 ![0, off] (shapeCast S1x1536 v hc) hs) hb (ix2 r q)
      = v (ix2 (0 : Fin 1) (colAt off hoff q)) := by
  rw [shapeCast_self]
  refine (Cert.Lib.Rows.bcastRow_apply _ hb r q).trans ?_
  exact extractStridedSlice_apply ![0, off] v hs (ix2 (0 : Fin 1) q) (ix2 (0 : Fin 1) (colAt off hoff q)) fun a => by
    match a with
    | ⟨0, _⟩ => rfl
    | ⟨1, _⟩ => rfl

/-- The attention column broadcast across the columns: at (r, q) the column at r. -/
theorem att_col (v : FVec Ideal S1024x1 .f32) (hb : S1024x1.Broadcasts S1024x512) (r : Fin 1024) (q : Fin 512) :
    broadcastTo S1024x512 v hb (ix2 r q) = v (ix2 r (0 : Fin 1)) :=
  Cert.Lib.Cols.bcastCol_apply v hb r q

/-- The three column offsets are inside the fused width. -/
theorem off0 : 0 + 512 ≤ 1536 := by decide
theorem off1 : 512 + 512 ≤ 1536 := by decide
theorem off2 : 1024 + 512 ≤ 1536 := by decide

/-- The step at one entry, from the six blocks: `h + u · (c − h)`. -/
def entry (x h : FVec Ideal S1024x512 .f32) (att : FVec Ideal S1024x1 .f32) (w u : FVec Ideal S512x1536 .f32)
    (b : FVec Ideal S1x1536 .f32) (r : Fin 1024) (q : Fin 512) : EReal :=
  h (ix2 r q)
    + (att (ix2 r (0 : Fin 1))
        * Ideal.logistic (rowDot x w r (colAt 0 off0 q) + rowDot h u r (colAt 0 off0 q) + b (ix2 (0 : Fin 1) (colAt 0 off0 q))))
      * (Ideal.tanh (rowDot x w r (colAt 1024 off2 q)
            + Ideal.logistic (rowDot x w r (colAt 512 off1 q) + rowDot h u r (colAt 512 off1 q) + b (ix2 (0 : Fin 1) (colAt 512 off1 q)))
              * rowDot h u r (colAt 1024 off2 q)
            + b (ix2 (0 : Fin 1) (colAt 1024 off2 q)))
          - h (ix2 r q))

/-- The payload at (r, q) is that entry. -/
theorem pay_apply (v0 v1 : FVec Ideal S1024x512 .f32) (v2 : FVec Ideal S1024x1 .f32) (v3 v5 : FVec Ideal S512x1536 .f32)
    (v7 : FVec Ideal S1x1536 .f32) (r : Fin 1024) (q : Fin 512) :
    k0_pay1 (F := Ideal) v0 v1 v2 v3 v5 v7 (ix2 r q) = entry v0 v1 v2 v3 v5 v7 r q := by
  unfold k0_pay1 entry
  simp only [addf, subf, mulf, Idealize.ShloMosaic.logistic, Idealize.ShloMosaic.tanh]
  rw [mm_slice v0 v3 0 off0, mm_slice v1 v5 0 off0, mm_slice v0 v3 512 off1, mm_slice v1 v5 512 off1,
    mm_slice v0 v3 1024 off2, mm_slice v1 v5 1024 off2, bias_slice v7 0 off0, bias_slice v7 512 off1, bias_slice v7 1024 off2,
    att_col v2]
  rfl

end Cert.KernelIdeal.Pay

end
-- ==== Proof.Spec.lean ====
/-
  What both programs compute, entry by entry, on the extended reals: one step of an attention-gated recurrent
  cell over a batch of 16384 rows of width 512.

  For a batch row `p` and an output column `q`, with `x·W` the product of a row of `x` with a column of `W`:
    update gate     u = att[p] · σ(x·W_u + h·U_u + b_u[q])
    reset gate      r = σ(x·W_r + h·U_r + b_r[q])
    candidate       c = tanh(x·W_h + r · (h·U_h) + b_h[q])
  and the new state is written two ways: `h + u · (c − h)` (one multiply) and `(1 − u) · h + u · c` (the convex
  combination). The two agree whenever every quantity is a real number; on the extended reals they need not
  (distributing `u` over a difference fails at an infinity), so the equality is stated under finiteness.
-/
import Idealize.ShloMosaic.PureOps.Ideal
import Idealize.ShloMosaic.Lib.ValueIdx

noncomputable section

open scoped BigOperators

namespace Cert.Spec

open Idealize.ShloMosaic Idealize.ShloMosaic.ValueIdx

/-- The batch arrays `x`, `hidden` and the result: 16384 rows of 512. -/
abbrev Rows : Shape := ⟨2, ![16384, 512]⟩
/-- The attention score: one number per batch row, kept as a column. -/
abbrev Col : Shape := ⟨2, ![16384, 1]⟩
/-- A weight matrix. -/
abbrev Sq : Shape := ⟨2, ![512, 512]⟩
/-- A bias. -/
abbrev Bias : Shape := ⟨1, ![512]⟩

/-- Row `p` of a batch array against column `q` of a weight matrix. -/
def dot (X : Rows.Idx → EReal) (W : Sq.Idx → EReal) (p : Fin 16384) (q : Fin 512) : EReal :=
  ∑ k : Fin 512, X (ix2 p k) * W (ix2 k q)

/-- A gate's pre-activation: `x·W + h·U + b`. -/
def pre (X H : Rows.Idx → EReal) (W U : Sq.Idx → EReal) (b : Bias.Idx → EReal) (p : Fin 16384) (q : Fin 512) : EReal :=
  dot X W p q + dot H U p q + b (ix1 q)

/-- The attention-scaled update gate. -/
def upd (X : Rows.Idx → EReal) (A : Col.Idx → EReal) (H : Rows.Idx → EReal) (Wu Uu : Sq.Idx → EReal) (bu : Bias.Idx → EReal)
    (p : Fin 16384) (q : Fin 512) : EReal :=
  A (ix2 p 0) * Ideal.logistic (pre X H Wu Uu bu p q)

/-- The candidate state: the reset gate scales the recurrent product only. -/
def cand (X H : Rows.Idx → EReal) (Wr Ur : Sq.Idx → EReal) (br : Bias.Idx → EReal) (Wh Uh : Sq.Idx → EReal) (bh : Bias.Idx → EReal)
    (p : Fin 16384) (q : Fin 512) : EReal :=
  Ideal.tanh (dot X Wh p q + Ideal.logistic (pre X H Wr Ur br p q) * dot H Uh p q + bh (ix1 q))

/-- The new state as `h + u · (c − h)`. -/
def stepFused (X : Rows.Idx → EReal) (A : Col.Idx → EReal) (H : Rows.Idx → EReal) (Wu Uu : Sq.Idx → EReal) (bu : Bias.Idx → EReal)
    (Wr Ur : Sq.Idx → EReal) (br : Bias.Idx → EReal) (Wh Uh : Sq.Idx → EReal) (bh : Bias.Idx → EReal) (i : Rows.Idx) : EReal :=
  H i + upd X A H Wu Uu bu (i 0) (i 1) * (cand X H Wr Ur br Wh Uh bh (i 0) (i 1) - H i)

/-- The new state as `(1 − u) · h + u · c`. -/
def stepConvex (X : Rows.Idx → EReal) (A : Col.Idx → EReal) (H : Rows.Idx → EReal) (Wu Uu : Sq.Idx → EReal) (bu : Bias.Idx → EReal)
    (Wr Ur : Sq.Idx → EReal) (br : Bias.Idx → EReal) (Wh Uh : Sq.Idx → EReal) (bh : Bias.Idx → EReal) (i : Rows.Idx) : EReal :=
  (1 - upd X A H Wu Uu bu (i 0) (i 1)) * H i + upd X A H Wu Uu bu (i 0) (i 1) * cand X H Wr Ur br Wh Uh bh (i 0) (i 1)

/-- An array all of whose entries are real numbers. -/
def Finite {s : Shape} (X : s.Idx → EReal) : Prop := ∀ i, ∃ r : ℝ, X i = (r : EReal)

end Cert.Spec

end
-- ==== Proof.KernelEntry.lean ====
/-
  One entry of the block, from the blocks the body loaded, is one entry of the whole-array step.

  Row `r` of a 1024-row block is row `R` of the batch arrays; column `offset + q` of a fused weight matrix (or of the
  fused bias row) is column `q` of the update, reset or candidate array according to the offset 0, 512 or 1024.
  Under these identifications of what was loaded with the arrays it came from, the body's entry at `(r, q)` is the
  step `h + u · (c − h)` of the arrays at `(R, q)`: the same sums, gates and hyperbolic tangent, term by term.
-/
import proofs.«107161_j64596308132456_2_alg».proof.Proof.KernelPayload
import proofs.«107161_j64596308132456_2_alg».proof.Proof.Spec

noncomputable section

open scoped BigOperators

namespace Cert.KernelIdeal.Pay

open Cert.KernelIdeal Cert.KernelIdeal.Gen Idealize.ShloMosaic Idealize.ShloMosaic.ValueIdx

theorem entry_eq_step (x h : FVec Ideal S1024x512 .f32) (att : FVec Ideal S1024x1 .f32) (w u : FVec Ideal S512x1536 .f32)
    (b : FVec Ideal S1x1536 .f32)
    (X : Cert.Spec.Rows.Idx → EReal) (A : Cert.Spec.Col.Idx → EReal) (H : Cert.Spec.Rows.Idx → EReal)
    (Wu Uu : Cert.Spec.Sq.Idx → EReal) (bu : Cert.Spec.Bias.Idx → EReal)
    (Wr Ur : Cert.Spec.Sq.Idx → EReal) (br : Cert.Spec.Bias.Idx → EReal)
    (Wh Uh : Cert.Spec.Sq.Idx → EReal) (bh : Cert.Spec.Bias.Idx → EReal)
    (r : Fin 1024) (R : Fin 16384) (q : Fin 512)
    (hx : ∀ k, x (ix2 r k) = X (ix2 R k)) (hh : ∀ k, h (ix2 r k) = H (ix2 R k))
    (hatt : att (ix2 r (0 : Fin 1)) = A (ix2 R (0 : Fin 1)))
    (hw0 : ∀ k, w (ix2 k (colAt 0 off0 q)) = Wu (ix2 k q)) (hw1 : ∀ k, w (ix2 k (colAt 512 off1 q)) = Wr (ix2 k q))
    (hw2 : ∀ k, w (ix2 k (colAt 1024 off2 q)) = Wh (ix2 k q))
    (hu0 : ∀ k, u (ix2 k (colAt 0 off0 q)) = Uu (ix2 k q)) (hu1 : ∀ k, u (ix2 k (colAt 512 off1 q)) = Ur (ix2 k q))
    (hu2 : ∀ k, u (ix2 k (colAt 1024 off2 q)) = Uh (ix2 k q))
    (hb0 : b (ix2 (0 : Fin 1) (colAt 0 off0 q)) = bu (ix1 q)) (hb1 : b (ix2 (0 : Fin 1) (colAt 512 off1 q)) = br (ix1 q))
    (hb2 : b (ix2 (0 : Fin 1) (colAt 1024 off2 q)) = bh (ix1 q)) :
    entry x h att w u b r q = Cert.Spec.stepFused X A H Wu Uu bu Wr Ur br Wh Uh bh (ix2 R q) := by
  show entry x h att w u b r q
    = H (ix2 R q) + Cert.Spec.upd X A H Wu Uu bu R q * (Cert.Spec.cand X H Wr Ur br Wh Uh bh R q - H (ix2 R q))
  unfold entry Cert.Spec.upd Cert.Spec.cand Cert.Spec.pre Cert.Spec.dot rowDot
  simp only [hx, hh, hatt, hw0, hw1, hw2, hu0, hu1, hu2, hb0, hb1, hb2]

end Cert.KernelIdeal.Pay

end
-- ==== Proof.LibConcatThree.lean ====
/-
  Three arrays laid side by side, read at an index.

  Three `a × b` arrays concatenated along axis 1 into an `a × c` array (so `c = 3·b`): at `(p, j)` the result reads
  the first array at `(p, j)` when `j < b`, the second at `(p, j − b)` when `b ≤ j < 2b`, the third at
  `(p, j − 2b)` beyond. The same for three length-`b` vectors concatenated into a length-`c` vector. Stated with the
  column split as a hypothesis `j = offset + q`, for any element type and any extents.
-/
import Idealize.ShloMosaic.Lib.Pipeline.Value
import Idealize.ShloMosaic.Lib.ValueIdx

noncomputable section

namespace Cert.Lib.ConcatThree

open Idealize.ShloMosaic Idealize.ShloMosaic.ValueIdx

variable {α : Type} {a b c : Nat}

/-- Columns `[0, b)` of the concatenation are the first array. -/
theorem cols_first (x0 x1 x2 : (⟨2, ![a, b]⟩ : Shape).Idx → α)
    (h : Shape.Concatenates [(⟨2, ![a, b]⟩ : Shape), ⟨2, ![a, b]⟩, ⟨2, ![a, b]⟩] ⟨2, ![a, c]⟩ (1 : Fin 2))
    (p : Fin a) (q : Fin b) (j : Fin c) (hj : j.val = q.val) :
    concatenate ⟨2, ![a, c]⟩ (1 : Fin 2) [⟨⟨2, ![a, b]⟩, x0⟩, ⟨⟨2, ![a, b]⟩, x1⟩, ⟨⟨2, ![a, b]⟩, x2⟩] h (ix2 p j) = x0 (ix2 p q) :=
  concatenate_apply_piece (t := ⟨2, ![a, c]⟩) (1 : Fin 2) ([⟨⟨2, ![a, b]⟩, x0⟩, ⟨⟨2, ![a, b]⟩, x1⟩, ⟨⟨2, ![a, b]⟩, x2⟩] : List ((s : Shape) × (s.Idx → α))) h (ix2 p j) 0 (show (0 : Nat) < 3 by omega) ⟨2, ![a, b]⟩ x0 rfl rfl 0 rfl (ix2 p q)
    (fun d hd => by
      match d with
      | ⟨0, _⟩ => rfl
      | ⟨1, _⟩ => exact absurd rfl hd)
    (by show 0 + q.val = j.val; omega)

/-- Columns `[b, 2b)` are the second array. -/
theorem cols_second (x0 x1 x2 : (⟨2, ![a, b]⟩ : Shape).Idx → α)
    (h : Shape.Concatenates [(⟨2, ![a, b]⟩ : Shape), ⟨2, ![a, b]⟩, ⟨2, ![a, b]⟩] ⟨2, ![a, c]⟩ (1 : Fin 2))
    (p : Fin a) (q : Fin b) (j : Fin c) (hj : j.val = b + q.val) :
    concatenate ⟨2, ![a, c]⟩ (1 : Fin 2) [⟨⟨2, ![a, b]⟩, x0⟩, ⟨⟨2, ![a, b]⟩, x1⟩, ⟨⟨2, ![a, b]⟩, x2⟩] h (ix2 p j) = x1 (ix2 p q) :=
  concatenate_apply_piece (t := ⟨2, ![a, c]⟩) (1 : Fin 2) ([⟨⟨2, ![a, b]⟩, x0⟩, ⟨⟨2, ![a, b]⟩, x1⟩, ⟨⟨2, ![a, b]⟩, x2⟩] : List ((s : Shape) × (s.Idx → α))) h (ix2 p j) 1 (show (1 : Nat) < 3 by omega) ⟨2, ![a, b]⟩ x1 rfl rfl b (by simp) (ix2 p q)
    (fun d hd => by
      match d with
      | ⟨0, _⟩ => rfl
      | ⟨1, _⟩ => exact absurd rfl hd)
    (by show b + q.val = j.val; omega)

/-- Columns `[2b, 3b)` are the third array. -/
theorem cols_third (x0 x1 x2 : (⟨2, ![a, b]⟩ : Shape).Idx → α)
    (h : Shape.Concatenates [(⟨2, ![a, b]⟩ : Shape), ⟨2, ![a, b]⟩, ⟨2, ![a, b]⟩] ⟨2, ![a, c]⟩ (1 : Fin 2))
    (p : Fin a) (q : Fin b) (j : Fin c) (hj : j.val = b + b + q.val) :
    concatenate ⟨2, ![a, c]⟩ (1 : Fin 2) [⟨⟨2, ![a, b]⟩, x0⟩, ⟨⟨2, ![a, b]⟩, x1⟩, ⟨⟨2, ![a, b]⟩, x2⟩] h (ix2 p j) = x2 (ix2 p q) :=
  concatenate_apply_piece (t := ⟨2, ![a, c]⟩) (1 : Fin 2) ([⟨⟨2, ![a, b]⟩, x0⟩, ⟨⟨2, ![a, b]⟩, x1⟩, ⟨⟨2, ![a, b]⟩, x2⟩] : List ((s : Shape) × (s.Idx → α))) h (ix2 p j) 2 (show (2 : Nat) < 3 by omega) ⟨2, ![a, b]⟩ x2 rfl rfl (b + b) (by simp) (ix2 p q)
    (fun d hd => by
      match d with
      | ⟨0, _⟩ => rfl
      | ⟨1, _⟩ => exact absurd rfl hd)
    (by show b + b + q.val = j.val; omega)

/-- Entries `[0, b)` of three vectors end to end are the first vector. -/
theorem vec_first (x0 x1 x2 : (⟨1, ![b]⟩ : Shape).Idx → α)
    (h : Shape.Concatenates [(⟨1, ![b]⟩ : Shape), ⟨1, ![b]⟩, ⟨1, ![b]⟩] ⟨1, ![c]⟩ (0 : Fin 1))
    (q : Fin b) (j : Fin c) (hj : j.val = q.val) :
    concatenate ⟨1, ![c]⟩ (0 : Fin 1) [⟨⟨1, ![b]⟩, x0⟩, ⟨⟨1, ![b]⟩, x1⟩, ⟨⟨1, ![b]⟩, x2⟩] h (ix1 j) = x0 (ix1 q) :=
  concatenate_apply_piece (t := ⟨1, ![c]⟩) (0 : Fin 1) ([⟨⟨1, ![b]⟩, x0⟩, ⟨⟨1, ![b]⟩, x1⟩, ⟨⟨1, ![b]⟩, x2⟩] : List ((s : Shape) × (s.Idx → α))) h (ix1 j) 0 (show (0 : Nat) < 3 by omega) ⟨1, ![b]⟩ x0 rfl rfl 0 rfl (ix1 q)
    (fun d hd => by
      match d with
      | ⟨0, _⟩ => exact absurd rfl hd)
    (by show 0 + q.val = j.val; omega)

/-- Entries `[b, 2b)` are the second vector. -/
theorem vec_second (x0 x1 x2 : (⟨1, ![b]⟩ : Shape).Idx → α)
    (h : Shape.Concatenates [(⟨1, ![b]⟩ : Shape), ⟨1, ![b]⟩, ⟨1, ![b]⟩] ⟨1, ![c]⟩ (0 : Fin 1))
    (q : Fin b) (j : Fin c) (hj : j.val = b + q.val) :
    concatenate ⟨1, ![c]⟩ (0 : Fin 1) [⟨⟨1, ![b]⟩, x0⟩, ⟨⟨1, ![b]⟩, x1⟩, ⟨⟨1, ![b]⟩, x2⟩] h (ix1 j) = x1 (ix1 q) :=
  concatenate_apply_piece (t := ⟨1, ![c]⟩) (0 : Fin 1) ([⟨⟨1, ![b]⟩, x0⟩, ⟨⟨1, ![b]⟩, x1⟩, ⟨⟨1, ![b]⟩, x2⟩] : List ((s : Shape) × (s.Idx → α))) h (ix1 j) 1 (show (1 : Nat) < 3 by omega) ⟨1, ![b]⟩ x1 rfl rfl b (by simp) (ix1 q)
    (fun d hd => by
      match d with
      | ⟨0, _⟩ => exact absurd rfl hd)
    (by show b + q.val = j.val; omega)

/-- Entries `[2b, 3b)` are the third vector. -/
theorem vec_third (x0 x1 x2 : (⟨1, ![b]⟩ : Shape).Idx → α)
    (h : Shape.Concatenates [(⟨1, ![b]⟩ : Shape), ⟨1, ![b]⟩, ⟨1, ![b]⟩] ⟨1, ![c]⟩ (0 : Fin 1))
    (q : Fin b) (j : Fin c) (hj : j.val = b + b + q.val) :
    concatenate ⟨1, ![c]⟩ (0 : Fin 1) [⟨⟨1, ![b]⟩, x0⟩, ⟨⟨1, ![b]⟩, x1⟩, ⟨⟨1, ![b]⟩, x2⟩] h (ix1 j) = x2 (ix1 q) :=
  concatenate_apply_piece (t := ⟨1, ![c]⟩) (0 : Fin 1) ([⟨⟨1, ![b]⟩, x0⟩, ⟨⟨1, ![b]⟩, x1⟩, ⟨⟨1, ![b]⟩, x2⟩] : List ((s : Shape) × (s.Idx → α))) h (ix1 j) 2 (show (2 : Nat) < 3 by omega) ⟨1, ![b]⟩ x2 rfl rfl (b + b) (by simp) (ix1 q)
    (fun d hd => by
      match d with
      | ⟨0, _⟩ => exact absurd rfl hd)
    (by show b + b + q.val = j.val; omega)

end Cert.Lib.ConcatThree

end
-- ==== Proof.KernelBlocks.lean ====
/-
  From blocks to the array: what the kernel's result array holds after the run.

  Before the region the host lines lay the three input-weight matrices side by side into one 512 × 1536 matrix, the
  three recurrent-weight matrices likewise, and the three biases end to end into a row of 1536: column `offset + q` of
  a fused array is column `q` of its update, reset or candidate part (offset 0, 512, 1024). Grid point `t` stages rows
  `1024·t … 1024·t + 1023` of x, of the hidden state and of the attention column, and the three fused arrays whole;
  what it writes back is the body's payload of those blocks, which is rows `1024·t …` of the whole-array step
  `h + u · (c − h)`. The sixteen blocks tile the 16384 rows (row `R` lies in block `R / 1024`), so the result array
  ends as that step of the twelve arguments, and the arguments are unchanged.
-/
import proofs.«107161_j64596308132456_2_alg».proof.Proof.IdealFrame
import proofs.«107161_j64596308132456_2_alg».proof.Proof.KernelEntry
import proofs.«107161_j64596308132456_2_alg».proof.Proof.LibConcatThree
import Idealize.ShloMosaic.Lib.Pipeline.Value
import Idealize.ShloMosaic.Lib.StableHlo.Run

noncomputable section

namespace Cert.KernelIdeal.Blocks

open Cert.KernelIdeal Cert.KernelIdeal.Gen Cert.KernelIdeal.Fr Cert.KernelIdeal.Pay
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The fused arrays the host lines build -/

theorem V_v0 (c : Dev nD) : (V m c main_v0 : S512x1536.Idx → EReal)
    = concatenate S512x1536 1 [⟨S512x512, (m ((c : Thread nD τ).loc main_arg3))⟩, ⟨S512x512, (m ((c : Thread nD τ).loc main_arg6))⟩, ⟨S512x512, (m ((c : Thread nD τ).loc main_arg9))⟩]
        concatenates_S512x512_S512x512_S512x512_S512x1536_d1 := by
  dsimp only [V, hostOps0]; after_results; rfl

theorem V_v1 (c : Dev nD) : (V m c main_v1 : S512x1536.Idx → EReal)
    = concatenate S512x1536 1 [⟨S512x512, (m ((c : Thread nD τ).loc main_arg4))⟩, ⟨S512x512, (m ((c : Thread nD τ).loc main_arg7))⟩, ⟨S512x512, (m ((c : Thread nD τ).loc main_arg10))⟩]
        concatenates_S512x512_S512x512_S512x512_S512x1536_d1 := by
  dsimp only [V, hostOps0]; after_results; rfl

theorem V_v3 (c : Dev nD) : (V m c main_v3 : S1x1536.Idx → EReal)
    = shapeCast S1x1536 (concatenate S1536 0 [⟨S512, (m ((c : Thread nD τ).loc main_arg5))⟩, ⟨S512, (m ((c : Thread nD τ).loc main_arg8))⟩, ⟨S512, (m ((c : Thread nD τ).loc main_arg11))⟩]
        concatenates_S512_S512_S512_S1536_d0) shapeCasts_S1536_S1x1536 := by
  dsimp only [V, hostOps0]; after_results; rfl

/-- Column `offset + q` of the fused input-weight matrix is column `q` of its part. -/
theorem wcol0 (c : Dev nD) (k q : Fin 512) : V m c main_v0 (ix2 k (colAt 0 off0 q)) = (m ((c : Thread nD τ).loc main_arg3)) (ix2 k q) :=
  (congrFun (V_v0 m c) _).trans (Cert.Lib.ConcatThree.cols_first _ _ _ _ k q (colAt 0 off0 q) (by show 0 + q.val = q.val; omega))
theorem wcol1 (c : Dev nD) (k q : Fin 512) : V m c main_v0 (ix2 k (colAt 512 off1 q)) = (m ((c : Thread nD τ).loc main_arg6)) (ix2 k q) :=
  (congrFun (V_v0 m c) _).trans (Cert.Lib.ConcatThree.cols_second _ _ _ _ k q (colAt 512 off1 q) rfl)
theorem wcol2 (c : Dev nD) (k q : Fin 512) : V m c main_v0 (ix2 k (colAt 1024 off2 q)) = (m ((c : Thread nD τ).loc main_arg9)) (ix2 k q) :=
  (congrFun (V_v0 m c) _).trans (Cert.Lib.ConcatThree.cols_third _ _ _ _ k q (colAt 1024 off2 q) rfl)

/-- The same for the fused recurrent-weight matrix. -/
theorem ucol0 (c : Dev nD) (k q : Fin 512) : V m c main_v1 (ix2 k (colAt 0 off0 q)) = (m ((c : Thread nD τ).loc main_arg4)) (ix2 k q) :=
  (congrFun (V_v1 m c) _).trans (Cert.Lib.ConcatThree.cols_first _ _ _ _ k q (colAt 0 off0 q) (by show 0 + q.val = q.val; omega))
theorem ucol1 (c : Dev nD) (k q : Fin 512) : V m c main_v1 (ix2 k (colAt 512 off1 q)) = (m ((c : Thread nD τ).loc main_arg7)) (ix2 k q) :=
  (congrFun (V_v1 m c) _).trans (Cert.Lib.ConcatThree.cols_second _ _ _ _ k q (colAt 512 off1 q) rfl)
theorem ucol2 (c : Dev nD) (k q : Fin 512) : V m c main_v1 (ix2 k (colAt 1024 off2 q)) = (m ((c : Thread nD τ).loc main_arg10)) (ix2 k q) :=
  (congrFun (V_v1 m c) _).trans (Cert.Lib.ConcatThree.cols_third _ _ _ _ k q (colAt 1024 off2 q) rfl)

/-- The bias row at `(0, j)` is the fused bias vector at `j`. -/
theorem bias_row (v : S1536.Idx → EReal) (j : Fin 1536) :
    shapeCast S1x1536 v shapeCasts_S1536_S1x1536 (ix2 (0 : Fin 1) j) = v (ix1 j) :=
  shapeCast_apply v shapeCasts_S1536_S1x1536 _ _ (by
    rw [Shape.rowMajor_val_two, Shape.rowMajor_val_one]
    show j.val = (0 : Fin 1).val * 1536 + j.val
    simp)

theorem bcol0 (c : Dev nD) (q : Fin 512) : V m c main_v3 (ix2 (0 : Fin 1) (colAt 0 off0 q)) = (m ((c : Thread nD τ).loc main_arg5)) (ix1 q) :=
  (congrFun (V_v3 m c) _).trans ((bias_row _ _).trans
    (Cert.Lib.ConcatThree.vec_first _ _ _ _ q (colAt 0 off0 q) (by show 0 + q.val = q.val; omega)))
theorem bcol1 (c : Dev nD) (q : Fin 512) : V m c main_v3 (ix2 (0 : Fin 1) (colAt 512 off1 q)) = (m ((c : Thread nD τ).loc main_arg8)) (ix1 q) :=
  (congrFun (V_v3 m c) _).trans ((bias_row _ _).trans (Cert.Lib.ConcatThree.vec_second _ _ _ _ q (colAt 512 off1 q) rfl))
theorem bcol2 (c : Dev nD) (q : Fin 512) : V m c main_v3 (ix2 (0 : Fin 1) (colAt 1024 off2 q)) = (m ((c : Thread nD τ).loc main_arg11)) (ix1 q) :=
  (congrFun (V_v3 m c) _).trans ((bias_row _ _).trans (Cert.Lib.ConcatThree.vec_third _ _ _ _ q (colAt 1024 off2 q) rfl))

/-! ## The windows' blocks at a point -/

/-- The printed index maps over the grid: the three batch inputs and the output walk the row blocks, the fused arrays
    stay put. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `r` of block `t` is row `1024·t + r` of the array. -/
def rowOf (t : Fin cfg0.N) (r : Fin 1024) : Fin 16384 :=
  ⟨1024 * t.val + r.val, by have := t.isLt; have hN : cfg0.N = 16 := N_0; have := r.isLt; omega⟩

theorem read_x (c : Dev nD) (t : Fin cfg0.N) (r : Fin 1024) (k : Fin 512) :
    iblk m c 0 t (ix2 r k) = (m ((c : Thread nD τ).loc main_arg0)) (ix2 (rowOf t r) k) := by
  show V m c main_arg0 (((cfg0.win 0).blk t).view.emb (ix2 r k)) = _
  rw [V_main_arg0]
  refine congrArg (m ((c : Thread nD τ).loc main_arg0)) (funext fun a => Fin.ext ?_)
  obtain ⟨e0, e1, -⟩ := idx_facts t
  match a with
  | ⟨0, _⟩ => show win0_0.index t (0 : Fin 2) * 1024 + 1 * r.val = 1024 * t.val + r.val; rw [e0]; omega
  | ⟨1, _⟩ => show win0_0.index t (1 : Fin 2) * 512 + 1 * k.val = k.val; rw [e1]; omega

theorem read_h (c : Dev nD) (t : Fin cfg0.N) (r : Fin 1024) (k : Fin 512) :
    iblk m c 1 t (ix2 r k) = (m ((c : Thread nD τ).loc main_arg2)) (ix2 (rowOf t r) k) := by
  show V m c main_arg2 (((cfg0.win 1).blk t).view.emb (ix2 r k)) = _
  rw [V_main_arg2]
  refine congrArg (m ((c : Thread nD τ).loc main_arg2)) (funext fun a => Fin.ext ?_)
  obtain ⟨-, -, e0, e1, -⟩ := idx_facts t
  match a with
  | ⟨0, _⟩ => show win0_1.index t (0 : Fin 2) * 1024 + 1 * r.val = 1024 * t.val + r.val; rw [e0]; omega
  | ⟨1, _⟩ => show win0_1.index t (1 : Fin 2) * 512 + 1 * k.val = k.val; rw [e1]; omega

theorem read_att (c : Dev nD) (t : Fin cfg0.N) (r : Fin 1024) :
    iblk m c 2 t (ix2 r (0 : Fin 1)) = (m ((c : Thread nD τ).loc main_arg1)) (ix2 (rowOf t r) (0 : Fin 1)) := by
  show V m c main_arg1 (((cfg0.win 2).blk t).view.emb (ix2 r (0 : Fin 1))) = _
  rw [V_main_arg1]
  refine congrArg (m ((c : Thread nD τ).loc main_arg1)) (funext fun a => Fin.ext ?_)
  obtain ⟨-, -, -, -, e0, e1, -⟩ := idx_facts t
  match a with
  | ⟨0, _⟩ => show win0_2.index t (0 : Fin 2) * 1024 + 1 * r.val = 1024 * t.val + r.val; rw [e0]; omega
  | ⟨1, _⟩ => show win0_2.index t (1 : Fin 2) * 1 + 1 * (0 : Fin 1).val = (0 : Fin 1).val; rw [e1]; rfl

theorem read_w (c : Dev nD) (t : Fin cfg0.N) (k : Fin 512) (j : Fin 1536) :
    iblk m c 3 t (ix2 k j) = V m c main_v0 (ix2 k j) := by
  show V m c main_v0 (((cfg0.win 3).blk t).view.emb (ix2 k j)) = _
  refine congrArg (V m c main_v0) (funext fun a => Fin.ext ?_)
  obtain ⟨-, -, -, -, -, -, e0, e1, -⟩ := idx_facts t
  match a with
  | ⟨0, _⟩ => show win0_3.index t (0 : Fin 2) * 512 + 1 * k.val = k.val; rw [e0]; omega
  | ⟨1, _⟩ => show win0_3.index t (1 : Fin 2) * 1536 + 1 * j.val = j.val; rw [e1]; omega

theorem read_u (c : Dev nD) (t : Fin cfg0.N) (k : Fin 512) (j : Fin 1536) :
    iblk m c 4 t (ix2 k j) = V m c main_v1 (ix2 k j) := by
  show V m c main_v1 (((cfg0.win 4).blk t).view.emb (ix2 k j)) = _
  refine congrArg (V m c main_v1) (funext fun a => Fin.ext ?_)
  obtain ⟨-, -, -, -, -, -, -, -, e0, e1, -⟩ := idx_facts t
  match a with
  | ⟨0, _⟩ => show win0_4.index t (0 : Fin 2) * 512 + 1 * k.val = k.val; rw [e0]; omega
  | ⟨1, _⟩ => show win0_4.index t (1 : Fin 2) * 1536 + 1 * j.val = j.val; rw [e1]; omega

theorem read_b (c : Dev nD) (t : Fin cfg0.N) (j : Fin 1536) :
    iblk m c 5 t (ix2 (0 : Fin 1) j) = V m c main_v3 (ix2 (0 : Fin 1) j) := by
  show V m c main_v3 (((cfg0.win 5).blk t).view.emb (ix2 (0 : Fin 1) j)) = _
  refine congrArg (V m c main_v3) (funext fun a => Fin.ext ?_)
  obtain ⟨-, -, -, -, -, -, -, -, -, -, e0, e1, -⟩ := idx_facts t
  match a with
  | ⟨0, _⟩ => show win0_5.index t (0 : Fin 2) * 1 + 1 * (0 : Fin 1).val = (0 : Fin 1).val; rw [e0]; rfl
  | ⟨1, _⟩ => show win0_5.index t (1 : Fin 2) * 1536 + 1 * j.val = j.val; rw [e1]; omega

/-! ## What a point writes back -/

/-- The whole-array step of the twelve arguments. -/
abbrev G (c : Dev nD) : S16384x512.Idx → EReal := Cert.Spec.stepFused (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

theorem hz : (![0, 0] : Fin 2 → Nat) = fun _ => 0 := funext fun a => by fin_cases a <;> rfl

/-- Point `t` writes back block `t` of the step. -/
theorem flushed_eq (c : Dev nD) (t : Fin cfg0.N) :
    (dats m 0 c).flushed 6 t = ((cfg0.win 6).blk t).view.read (Elt Ideal) (G m c) := by
  show (cfg0.win 6).cut (grid0.coords t) ((dats m 0 c).after 6 t) = _
  rw [after6]
  unfold out6
  rw [View.canon_unit_zero hz]
  simp only [View.ld_unit_zero (S := S1024x512) hz, View.ld_unit_zero (S := S1024x1) hz, View.ld_unit_zero (S := S512x1536) hz,
    View.ld_unit_zero (S := S1x1536) hz]
  funext j
  obtain ⟨r, q, rfl⟩ : ∃ (r : Fin 1024) (q : Fin 512), j = ix2 r q := ⟨j 0, j 1, eq_ix2 j⟩
  refine (pay_apply _ _ _ _ _ _ r q).trans ?_
  have hemb : ((cfg0.win 6).blk t).view.emb (ix2 r q) = ix2 (rowOf t r) q := by
    obtain ⟨-, -, -, -, -, -, -, -, -, -, -, -, e0, e1⟩ := idx_facts t
    funext a; apply Fin.ext
    match a with
    | ⟨0, _⟩ => show win0_6.index t (0 : Fin 2) * 1024 + 1 * r.val = 1024 * t.val + r.val; rw [e0]; omega
    | ⟨1, _⟩ => show win0_6.index t (1 : Fin 2) * 512 + 1 * q.val = q.val; rw [e1]; omega
  show _ = G m c (((cfg0.win 6).blk t).view.emb (ix2 r q))
  rw [hemb]
  exact entry_eq_step _ _ _ _ _ _ _ _ _ _ _ _ _ _ _ _ _ _ r (rowOf t r) q
    (fun k => read_x m c t r k) (fun k => read_h m c t r k) (read_att m c t r)
    (fun k => (read_w m c t k _).trans (wcol0 m c k q)) (fun k => (read_w m c t k _).trans (wcol1 m c k q))
    (fun k => (read_w m c t k _).trans (wcol2 m c k q))
    (fun k => (read_u m c t k _).trans (ucol0 m c k q)) (fun k => (read_u m c t k _).trans (ucol1 m c k q))
    (fun k => (read_u m c t k _).trans (ucol2 m c k q))
    ((read_b m c t _).trans (bcol0 m c q)) ((read_b m c t _).trans (bcol1 m c q)) ((read_b m c t _).trans (bcol2 m c q))

/-! ## The blocks tile the array -/

theorem mem_blk (t : Fin cfg0.N) (i : S16384x512.Idx) :
    i ∈ ((cfg0.win 6).blk t).view.set ↔ ∀ a : Fin 2, win0_6.index t a * S1024x512.size a ≤ (i a).val
      ∧ (i a).val < win0_6.index t a * S1024x512.size a + S1024x512.size a := by
  show i ∈ ((View.whole main_v4).slice (win0_6.rect t)).set ↔ _
  rw [View.set_slice_whole, Rect.mem_set_unit]
  exact Iff.rfl

/-- Row `R` lies in block `R / 1024`. -/
theorem cover (i : S16384x512.Idx) :
    ∃ t : Fin cfg0.N, (cfg0.win 6).flush t = true ∧ i ∈ ((cfg0.win 6).blk t).view.set := by
  have hi0 : (i 0).val < 16384 := (i 0).isLt
  have hi1 : (i 1).val < 512 := (i 1).isLt
  have hN : cfg0.N = 16 := N_0
  obtain ⟨t, ht⟩ : ∃ t : Fin cfg0.N, t.val = (i 0).val / 1024 := ⟨⟨(i 0).val / 1024, by omega⟩, rfl⟩
  obtain ⟨-, -, -, -, -, -, -, -, -, -, -, -, e0, e1⟩ := idx_facts t
  refine ⟨t, flush0_6 t, ?_⟩
  rw [mem_blk]
  intro a
  match a with
  | ⟨0, _⟩ =>
    show win0_6.index t (0 : Fin 2) * 1024 ≤ (i 0).val ∧ (i 0).val < win0_6.index t (0 : Fin 2) * 1024 + 1024
    rw [e0, ht]; omega
  | ⟨1, _⟩ =>
    show win0_6.index t (1 : Fin 2) * 512 ≤ (i 1).val ∧ (i 1).val < win0_6.index t (1 : Fin 2) * 512 + 512
    rw [e1]; omega

/-- The result array after the run is the step of the arguments. -/
theorem final (c : Dev nD) : (dats m 0 c).arrAt 6 cfg0.N = G m c :=
  (dats m 0 c).arrAt_eq_of_cover 6 (G m c) (fun t _ => flushed_eq m c t) (cover)

/-! ## The run, read -/

theorem run : θ_run defs (onTc (τ := τ) (main (F := Ideal))) ⟨m, fun _ => 0, ρ⟩ fun r => ∀ c : Dev nD,
      r.2.mem ((c.tc : Thread nD τ).loc main_v4) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨((h c).1 6).trans (final m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩)
    (run_main m ρ)

end Cert.KernelIdeal.Blocks

end
-- ==== Proof.RefIsSpec.lean ====
/-
  The reference program computes the convex form of the step.

  The reference is a plain attention-gated recurrent cell written operation by operation: three pairs of matrix
  products, three biases broadcast down the rows, two logistic gates spelt as 1 / (1 + exp (-z)) over the constant
  1.0, the attention column broadcast across the columns, a hyperbolic tangent, and the convex combination
  (1 - u) * h + u * c. Read at a batch row p and an output column q:
    * a matrix product is the sum over k of the row's entry k times the column's entry k (the specification's dot);
    * a bias broadcast to a 1 x 512 row and then down the rows is the bias at q;
    * the constant broadcast from a scalar is 1, so the quotient is the logistic function by its definition;
    * the attention column broadcast across the columns is the column at p.
  So the update gate's array is the specification's upd, the candidate's array its cand, and the last four
  operations are literally the convex form. Nothing is assumed of the arguments: every step is an unfolding, valid
  on all of the extended reals.
-/
import proofs.«107161_j64596308132456_2_alg».proof.Proof.Gen.ReferenceIdeal.Run
import proofs.«107161_j64596308132456_2_alg».proof.Proof.Gen.ReferenceIdeal.Read
import proofs.«107161_j64596308132456_2_alg».proof.Proof.Spec
import proofs.«107161_j64596308132456_2_alg».proof.Proof.LibPlainDot
import proofs.«107161_j64596308132456_2_alg».proof.Proof.LibRowBroadcasts
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem
open Idealize.ShloMosaic.ValueIdx
open scoped BigOperators

/-! ## The pieces, read at an index -/

/-- The pattern of 1.0 denotes the number one. -/
theorem ofBits_one : Ideal.ofBits .f32 0x3F800000#32 = 1 := by
  simp [Ideal.ofBits, Ideal.ieee, -EReal.coe_mul]; norm_num

/-- The scalar 1.0 broadcast to the batch shape is 1 at every index. -/
theorem ones_apply (i : S16384x512.Idx) :
    broadcastInDim S16384x512 ![] bcast_S_S16384x512 (constant (F := Ideal) S_ .f32 0x3F800000#32) i = 1 :=
  (broadcastInDim_apply _ bcast_S_S16384x512 _ i (fun a => a.elim0) (fun a => a.elim0)).trans ofBits_one

/-- A batch array times a weight matrix, at (p, q): the specification's dot. -/
theorem dot_apply (X : FVec Ideal S16384x512 .f32) (W : FVec Ideal S512x512 .f32) (p : Fin 16384) (q : Fin 512) :
    Host.dotGeneral dot_S16384x512_S512x512_S16384x512_1_0_0_1_n_n none X W (ix2 p q) = Cert.Spec.dot X W p q :=
  Cert.Lib.PlainDot.dotGeneral_apply dot_S16384x512_S512x512_S16384x512_1_0_0_1_n_n_wf none X W p q

/-- A bias made a 1 x 512 row and broadcast down the rows, at (p, q): the bias at q. -/
theorem bias_apply (b : FVec Ideal S512 .f32) (p : Fin 16384) (q : Fin 512) :
    broadcastInDim S16384x512 ![0, 1] bcast_S1x512_S16384x512_0_1 (broadcastInDim S1x512 ![1] bcast_S512_S1x512_1 b) (ix2 p q)
      = b (ix1 q) :=
  (Cert.Lib.Rows.dimRow_apply _ bcast_S1x512_S16384x512_0_1 p q).trans
    (broadcastInDim_apply _ bcast_S512_S1x512_1 b (ix2 (0 : Fin 1) q) (ix1 q) fun ax => by
      match ax with
      | ⟨0, _⟩ =>
        show q.val = if (512 : Nat) = 1 then 0 else q.val
        rw [if_neg (by decide)])

/-- A gate's pre-activation array, at (p, q): the specification's pre. -/
theorem pre_apply (X H : FVec Ideal S16384x512 .f32) (W U : FVec Ideal S512x512 .f32) (b : FVec Ideal S512 .f32)
    (p : Fin 16384) (q : Fin 512) :
    addf (addf (Host.dotGeneral dot_S16384x512_S512x512_S16384x512_1_0_0_1_n_n none X W)
        (Host.dotGeneral dot_S16384x512_S512x512_S16384x512_1_0_0_1_n_n none H U))
      (broadcastInDim S16384x512 ![0, 1] bcast_S1x512_S16384x512_0_1 (broadcastInDim S1x512 ![1] bcast_S512_S1x512_1 b)) (ix2 p q)
      = Cert.Spec.pre X H W U b p q := by
  show Host.dotGeneral dot_S16384x512_S512x512_S16384x512_1_0_0_1_n_n none X W (ix2 p q)
      + Host.dotGeneral dot_S16384x512_S512x512_S16384x512_1_0_0_1_n_n none H U (ix2 p q)
      + broadcastInDim S16384x512 ![0, 1] bcast_S1x512_S16384x512_0_1 (broadcastInDim S1x512 ![1] bcast_S512_S1x512_1 b) (ix2 p q) = _
  rw [dot_apply, dot_apply, bias_apply]
  rfl

/-- The quotient 1 / (1 + exp (-z)) over the broadcast constant is the logistic function of z, entry by entry. -/
theorem gate_apply (z : FVec Ideal S16384x512 .f32) (i : S16384x512.Idx) :
    Host.divf (broadcastInDim S16384x512 ![] bcast_S_S16384x512 (constant S_ .f32 0x3F800000#32))
      (addf (broadcastInDim S16384x512 ![] bcast_S_S16384x512 (constant S_ .f32 0x3F800000#32)) (Host.exp (Host.negf z))) i
      = Ideal.logistic (z i) := by
  show Ideal.div (broadcastInDim S16384x512 ![] bcast_S_S16384x512 (constant (F := Ideal) S_ .f32 0x3F800000#32) i)
      (broadcastInDim S16384x512 ![] bcast_S_S16384x512 (constant (F := Ideal) S_ .f32 0x3F800000#32) i + Ideal.exp (-(z i))) = _
  rw [ones_apply]
  rfl

/-! ## The three gates -/

/-- The update gate's array is the specification's upd: the attention column at p times the logistic gate. -/
theorem upd_stage (x : FVec Ideal S16384x512 .f32) (att : FVec Ideal S16384x1 .f32) (h : FVec Ideal S16384x512 .f32)
    (Wu Uu : FVec Ideal S512x512 .f32) (bu : FVec Ideal S512 .f32) (p : Fin 16384) (q : Fin 512) :
    Read.val_main_v13 (F := Ideal) x att h Wu Uu bu (ix2 p q) = Cert.Spec.upd x att h Wu Uu bu p q := by
  show broadcastInDim S16384x512 ![0, 1] bcast_S16384x1_S16384x512_0_1 att (ix2 p q)
      * Host.divf (broadcastInDim S16384x512 ![] bcast_S_S16384x512 (constant S_ .f32 0x3F800000#32))
          (addf (broadcastInDim S16384x512 ![] bcast_S_S16384x512 (constant S_ .f32 0x3F800000#32))
            (Host.exp (Host.negf (addf (addf (Host.dotGeneral dot_S16384x512_S512x512_S16384x512_1_0_0_1_n_n none x Wu)
                (Host.dotGeneral dot_S16384x512_S512x512_S16384x512_1_0_0_1_n_n none h Uu))
              (broadcastInDim S16384x512 ![0, 1] bcast_S1x512_S16384x512_0_1 (broadcastInDim S1x512 ![1] bcast_S512_S1x512_1 bu))))))
          (ix2 p q) = _
  rw [gate_apply, pre_apply, Cert.Lib.Rows.dimCol_apply]
  rfl

/-- The reset gate's array is the logistic function of its pre-activation. -/
theorem reset_stage (x h : FVec Ideal S16384x512 .f32) (Wr Ur : FVec Ideal S512x512 .f32) (br : FVec Ideal S512 .f32)
    (p : Fin 16384) (q : Fin 512) :
    Read.val_main_v25 (F := Ideal) x h Wr Ur br (ix2 p q) = Ideal.logistic (Cert.Spec.pre x h Wr Ur br p q) := by
  show Host.divf (broadcastInDim S16384x512 ![] bcast_S_S16384x512 (constant S_ .f32 0x3F800000#32))
      (addf (broadcastInDim S16384x512 ![] bcast_S_S16384x512 (constant S_ .f32 0x3F800000#32))
        (Host.exp (Host.negf (addf (addf (Host.dotGeneral dot_S16384x512_S512x512_S16384x512_1_0_0_1_n_n none x Wr)
            (Host.dotGeneral dot_S16384x512_S512x512_S16384x512_1_0_0_1_n_n none h Ur))
          (broadcastInDim S16384x512 ![0, 1] bcast_S1x512_S16384x512_0_1 (broadcastInDim S1x512 ![1] bcast_S512_S1x512_1 br))))))
      (ix2 p q) = _
  rw [gate_apply, pre_apply]

/-- The candidate's array is the specification's cand: the reset gate scales the recurrent product only. -/
theorem cand_stage (x h : FVec Ideal S16384x512 .f32) (Wr Ur : FVec Ideal S512x512 .f32) (br : FVec Ideal S512 .f32)
    (Wh Uh : FVec Ideal S512x512 .f32) (bh : FVec Ideal S512 .f32) (p : Fin 16384) (q : Fin 512) :
    Read.val_main_v33 (F := Ideal) x h Wr Ur br Wh Uh bh (ix2 p q) = Cert.Spec.cand x h Wr Ur br Wh Uh bh p q := by
  show Ideal.tanh (Host.dotGeneral dot_S16384x512_S512x512_S16384x512_1_0_0_1_n_n none x Wh (ix2 p q)
      + Read.val_main_v25 (F := Ideal) x h Wr Ur br (ix2 p q)
        * Host.dotGeneral dot_S16384x512_S512x512_S16384x512_1_0_0_1_n_n none h Uh (ix2 p q)
      + broadcastInDim S16384x512 ![0, 1] bcast_S1x512_S16384x512_0_1 (broadcastInDim S1x512 ![1] bcast_S512_S1x512_1 bh) (ix2 p q)) = _
  rw [reset_stage, dot_apply, dot_apply, bias_apply]
  rfl

/-! ## The result -/

/-- the reference's result stage, as a function of the twelve argument arrays, is the convex form of the step -/
theorem result_eq (x : FVec Ideal S16384x512 .f32) (att : FVec Ideal S16384x1 .f32) (h : FVec Ideal S16384x512 .f32)
    (Wu Uu : FVec Ideal S512x512 .f32) (bu : FVec Ideal S512 .f32) (Wr Ur : FVec Ideal S512x512 .f32) (br : FVec Ideal S512 .f32)
    (Wh Uh : FVec Ideal S512x512 .f32) (bh : FVec Ideal S512 .f32) :
    addf (mulf (subf (broadcastInDim S16384x512 ![] bcast_S_S16384x512 (constant S_ .f32 0x3F800000#32)) (mulf (broadcastInDim S16384x512 ![0, 1] bcast_S16384x1_S16384x512_0_1 att) (Host.divf (broadcastInDim S16384x512 ![] bcast_S_S16384x512 (constant S_ .f32 0x3F800000#32)) (addf (broadcastInDim S16384x512 ![] bcast_S_S16384x512 (constant S_ .f32 0x3F800000#32)) (Host.exp (Host.negf (addf (addf (Host.dotGeneral dot_S16384x512_S512x512_S16384x512_1_0_0_1_n_n none x Wu) (Host.dotGeneral dot_S16384x512_S512x512_S16384x512_1_0_0_1_n_n none h Uu)) (broadcastInDim S16384x512 ![0, 1] bcast_S1x512_S16384x512_0_1 (broadcastInDim S1x512 ![1] bcast_S512_S1x512_1 bu))))))))) h) (mulf (mulf (broadcastInDim S16384x512 ![0, 1] bcast_S16384x1_S16384x512_0_1 att) (Host.divf (broadcastInDim S16384x512 ![] bcast_S_S16384x512 (constant S_ .f32 0x3F800000#32)) (addf (broadcastInDim S16384x512 ![] bcast_S_S16384x512 (constant S_ .f32 0x3F800000#32)) (Host.exp (Host.negf (addf (addf (Host.dotGeneral dot_S16384x512_S512x512_S16384x512_1_0_0_1_n_n none x Wu) (Host.dotGeneral dot_S16384x512_S512x512_S16384x512_1_0_0_1_n_n none h Uu)) (broadcastInDim S16384x512 ![0, 1] bcast_S1x512_S16384x512_0_1 (broadcastInDim S1x512 ![1] bcast_S512_S1x512_1 bu)))))))) (Host.tanh (addf (addf (Host.dotGeneral dot_S16384x512_S512x512_S16384x512_1_0_0_1_n_n none x Wh) (mulf (Host.divf (broadcastInDim S16384x512 ![] bcast_S_S16384x512 (constant S_ .f32 0x3F800000#32)) (addf (broadcastInDim S16384x512 ![] bcast_S_S16384x512 (constant S_ .f32 0x3F800000#32)) (Host.exp (Host.negf (addf (addf (Host.dotGeneral dot_S16384x512_S512x512_S16384x512_1_0_0_1_n_n none x Wr) (Host.dotGeneral dot_S16384x512_S512x512_S16384x512_1_0_0_1_n_n none h Ur)) (broadcastInDim S16384x512 ![0, 1] bcast_S1x512_S16384x512_0_1 (broadcastInDim S1x512 ![1] bcast_S512_S1x512_1 br))))))) (Host.dotGeneral dot_S16384x512_S512x512_S16384x512_1_0_0_1_n_n none h Uh))) (broadcastInDim S16384x512 ![0, 1] bcast_S1x512_S16384x512_0_1 (broadcastInDim S1x512 ![1] bcast_S512_S1x512_1 bh)))))
      = Cert.Spec.stepConvex x att h Wu Uu bu Wr Ur br Wh Uh bh := by
  rw [Read.val_main_v38_eq]
  funext i
  obtain ⟨p, q, rfl⟩ : ∃ (p : Fin 16384) (q : Fin 512), i = ix2 p q := ⟨i 0, i 1, eq_ix2 i⟩
  show (broadcastInDim S16384x512 ![] bcast_S_S16384x512 (constant (F := Ideal) S_ .f32 0x3F800000#32) (ix2 p q)
        - Read.val_main_v13 (F := Ideal) x att h Wu Uu bu (ix2 p q)) * h (ix2 p q)
      + Read.val_main_v13 (F := Ideal) x att h Wu Uu bu (ix2 p q) * Read.val_main_v33 (F := Ideal) x h Wr Ur br Wh Uh bh (ix2 p q) = _
  rw [ones_apply, upd_stage, cand_stage]
  rfl

/-- the reference's run, its result named by the specification -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v38)
        = Cert.Spec.stepConvex (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c).1.trans (result_eq _ _ _ _ _ _ _ _ _ _ _ _), (h c).2⟩)
    (Value.run (F := Ideal) m ρ)

end Cert.ReferenceIdeal.RefValue

end
-- ==== Proof.SpecAlgebra.lean ====
/-
  On real entries the two forms of the step agree.

  Every quantity in the specification is built from the input entries by finite sums, products, sums,
  the logistic function and the hyperbolic tangent. Each of these sends real numbers to real numbers, so
  when every input entry is a real number the update gate `u`, the candidate `c` and the old state `h`
  are real numbers too, and `h + u · (c − h) = (1 − u) · h + u · c` is then an identity of the real field.
-/
import proofs.«107161_j64596308132456_2_alg».proof.Proof.Spec

noncomputable section

open scoped BigOperators

namespace Cert.Spec

open Idealize.ShloMosaic Idealize.ShloMosaic.ValueIdx

/-- A finite sum of real numbers, formed on the extended reals, is the real sum. -/
theorem sum_coe {ι : Type} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A product of a row of reals with a column of reals is a real. -/
theorem dot_finite {X : Rows.Idx → EReal} {W : Sq.Idx → EReal} (hX : Finite X) (hW : Finite W)
    (p : Fin 16384) (q : Fin 512) : ∃ r : ℝ, dot X W p q = (r : EReal) := by
  choose x hx using hX
  choose w hw using hW
  refine ⟨∑ k : Fin 512, x (ix2 p k) * w (ix2 k q), ?_⟩
  unfold dot
  rw [← sum_coe]
  refine Finset.sum_congr rfl (fun k _ => ?_)
  rw [hx, hw, EReal.coe_mul]

/-- A gate's pre-activation, on real entries, is a real. -/
theorem pre_finite {X H : Rows.Idx → EReal} {W U : Sq.Idx → EReal} {b : Bias.Idx → EReal}
    (hX : Finite X) (hH : Finite H) (hW : Finite W) (hU : Finite U) (hb : Finite b)
    (p : Fin 16384) (q : Fin 512) : ∃ r : ℝ, pre X H W U b p q = (r : EReal) := by
  obtain ⟨a, ha⟩ := dot_finite hX hW p q
  obtain ⟨c, hc⟩ := dot_finite hH hU p q
  obtain ⟨d, hd⟩ := hb (ix1 q)
  refine ⟨a + c + d, ?_⟩
  unfold pre
  rw [ha, hc, hd, EReal.coe_add, EReal.coe_add]

/-- The attention-scaled update gate, on real entries, is a real. -/
theorem upd_finite {X : Rows.Idx → EReal} {A : Col.Idx → EReal} {H : Rows.Idx → EReal}
    {Wu Uu : Sq.Idx → EReal} {bu : Bias.Idx → EReal}
    (hX : Finite X) (hA : Finite A) (hH : Finite H) (hWu : Finite Wu) (hUu : Finite Uu) (hbu : Finite bu)
    (p : Fin 16384) (q : Fin 512) : ∃ r : ℝ, upd X A H Wu Uu bu p q = (r : EReal) := by
  obtain ⟨a, ha⟩ := hA (ix2 p 0)
  obtain ⟨z, hz⟩ := pre_finite hX hH hWu hUu hbu p q
  refine ⟨a * (1 + Real.exp (-z))⁻¹, ?_⟩
  unfold upd
  rw [ha, hz, Ideal.logistic_coe, EReal.coe_mul]

/-- The candidate state, on real entries, is a real. -/
theorem cand_finite {X H : Rows.Idx → EReal} {Wr Ur : Sq.Idx → EReal} {br : Bias.Idx → EReal}
    {Wh Uh : Sq.Idx → EReal} {bh : Bias.Idx → EReal}
    (hX : Finite X) (hH : Finite H) (hWr : Finite Wr) (hUr : Finite Ur) (hbr : Finite br)
    (hWh : Finite Wh) (hUh : Finite Uh) (hbh : Finite bh)
    (p : Fin 16384) (q : Fin 512) : ∃ r : ℝ, cand X H Wr Ur br Wh Uh bh p q = (r : EReal) := by
  obtain ⟨a, ha⟩ := dot_finite hX hWh p q
  obtain ⟨z, hz⟩ := pre_finite hX hH hWr hUr hbr p q
  obtain ⟨c, hc⟩ := dot_finite hH hUh p q
  obtain ⟨d, hd⟩ := hbh (ix1 q)
  refine ⟨Real.tanh (a + (1 + Real.exp (-z))⁻¹ * c + d), ?_⟩
  unfold cand
  rw [ha, hz, hc, hd, Ideal.logistic_coe, ← EReal.coe_mul, ← EReal.coe_add, ← EReal.coe_add, Ideal.tanh_coe]

/-- The two forms of the new state agree on real numbers. -/
theorem fused_eq_convex_coe (h u c : ℝ) :
    (h : EReal) + (u : EReal) * ((c : EReal) - (h : EReal))
      = ((1 : EReal) - (u : EReal)) * (h : EReal) + (u : EReal) * (c : EReal) := by
  rw [← EReal.coe_sub, ← EReal.coe_mul, ← EReal.coe_add, ← EReal.coe_one, ← EReal.coe_sub,
    ← EReal.coe_mul, ← EReal.coe_mul, ← EReal.coe_add]
  congr 1
  ring

/-- THE LAW: `h + u · (c − h) = (1 − u) · h + u · c` once every array holds reals. -/
theorem stepFused_eq_stepConvex {X : Rows.Idx → EReal} {A : Col.Idx → EReal} {H : Rows.Idx → EReal}
    {Wu Uu : Sq.Idx → EReal} {bu : Bias.Idx → EReal}
    {Wr Ur : Sq.Idx → EReal} {br : Bias.Idx → EReal} {Wh Uh : Sq.Idx → EReal} {bh : Bias.Idx → EReal}
    (hX : Finite X) (hA : Finite A) (hH : Finite H) (hWu : Finite Wu) (hUu : Finite Uu) (hbu : Finite bu)
    (hWr : Finite Wr) (hUr : Finite Ur) (hbr : Finite br) (hWh : Finite Wh) (hUh : Finite Uh) (hbh : Finite bh)
    (i : Rows.Idx) :
    stepFused X A H Wu Uu bu Wr Ur br Wh Uh bh i = stepConvex X A H Wu Uu bu Wr Ur br Wh Uh bh i := by
  obtain ⟨u, hu⟩ := upd_finite hX hA hH hWu hUu hbu (i 0) (i 1)
  obtain ⟨c, hc⟩ := cand_finite hX hH hWr hUr hbr hWh hUh hbh (i 0) (i 1)
  obtain ⟨h, hh⟩ := hH i
  unfold stepFused stepConvex
  rw [hu, hc, hh]
  exact fused_eq_convex_coe h u c

end Cert.Spec

end
-- ==== Proof.PreFinite.lean ====
/-
  The precondition, read back: every entry of every input is a real number.

  The printed predicate is the conjunction, over the twelve inputs, of "every entry `x` of the array has
  `|x| < +∞`": the absolute value `max x (-x)` compared (strictly below) with the word `0x7F800000`, which denotes
  `⊤`; the comparisons of one array folded by `and` from 1; the twelve results joined by `and`. A one-bit `and`
  is 1 only when both operands are, a fold by `and` that is 1 met only 1s, and an extended real whose absolute
  value is below `⊤` is neither `⊤` nor `⊥`: it is a real number.
-/
import proofs.«107161_j64596308132456_2_alg».proof.Proof.Gen.Pre_finite_inputs
import proofs.«107161_j64596308132456_2_alg».proof.Proof.Spec
import Idealize.ShloMosaic.Lib.ReduceAll
import Idealize.ShloMosaic.Lib.ValueIdx
import Idealize.ShloMosaic.PureOps.Ideal.Laws

noncomputable section

namespace Cert.Pre_finite_inputs.Decode

open Idealize.ShloMosaic Cert.Pre_finite_inputs

/-- The shape with no axes has one index. -/
instance : Subsingleton S_.Idx := ⟨fun a b => funext fun d => d.elim0⟩

/-- An extended real whose absolute value `max x (-x)` is below `⊤` is a real number: at `⊤` and at `⊥` the
    absolute value is `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- One element of the comparison: `|x| < +∞` answering 1 says `x` is a real number. -/
theorem real_of_cmp (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  by_cases hlt : max (x : EReal) (-(x : EReal)) < ⊤
  · exact real_of_abs_lt_top x hlt
  · simp [hlt] at h

/-- One array: if the fold by `and` of the comparisons `|a i| < +∞` over all axes is 1, every entry of `a` is a
    real number. -/
theorem finite_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant S_ .f32 0x7F800000#32)))
          (constantI S_ 1 1#1) hr hu ValueIdx.ix0 = 1#1) :
    Cert.Spec.Finite a := by
  intro i
  have hi := Host.reduce_andi_all _ _ hr hu ValueIdx.ix0 e i
  exact real_of_cmp (a i) hi

/-- The precondition's twelve conjuncts, one per input: every entry of every input is a real number. -/
theorem finite_of_pre [Cert.Pre_finite_inputs.Facts]
    (a0 : FVec Ideal S16384x512 .f32) (a1 : FVec Ideal S16384x1 .f32) (a2 : FVec Ideal S16384x512 .f32)
    (a3 a4 : FVec Ideal S512x512 .f32) (a5 : FVec Ideal S512 .f32) (a6 a7 : FVec Ideal S512x512 .f32) (a8 : FVec Ideal S512 .f32)
    (a9 a10 : FVec Ideal S512x512 .f32) (a11 : FVec Ideal S512 .f32)
    (h : Cert.Pre_finite_inputs.fn (F := Ideal) a0 a1 a2 a3 a4 a5 a6 a7 a8 a9 a10 a11 = (fun _ => 1#1)) :
    Cert.Spec.Finite a0 ∧ Cert.Spec.Finite a1 ∧ Cert.Spec.Finite a2 ∧ Cert.Spec.Finite a3 ∧ Cert.Spec.Finite a4 ∧ Cert.Spec.Finite a5
      ∧ Cert.Spec.Finite a6 ∧ Cert.Spec.Finite a7 ∧ Cert.Spec.Finite a8 ∧ Cert.Spec.Finite a9 ∧ Cert.Spec.Finite a10 ∧ Cert.Spec.Finite a11 := by
  have h0 := congrFun h ValueIdx.ix0
  dsimp only [fn, fn_part1, fn_part2, fn_part3] at h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨finite_of_all a0 _ _ _ e0, finite_of_all a1 _ _ _ e1, finite_of_all a2 _ _ _ e2, finite_of_all a3 _ _ _ e3,
    finite_of_all a4 _ _ _ e4, finite_of_all a5 _ _ _ e5, finite_of_all a6 _ _ _ e6, finite_of_all a7 _ _ _ e7,
    finite_of_all a8 _ _ _ e8, finite_of_all a9 _ _ _ e9, finite_of_all a10 _ _ _ e10, finite_of_all a11 _ _ _ e11⟩

end Cert.Pre_finite_inputs.Decode

end
-- ==== Proof.lean ====
/-
  The claim: the three frames, the idealization's ledger (empty), and the algebraic equivalence.

  Both kernel programs terminate and leave their twelve arguments as launched (a whole-block body under a
  sixteen-point pipeline, after four host lines that write no argument); the reference is a straight line of host
  operations. At the exact instance the kernel's result array is the step `h + u · (c − h)` of the arguments and the
  reference's is `(1 − u) · h + u · c`, with the same gates `u`, `r` and candidate `c` — the fused products against
  side-by-side weight matrices are the separate products, column block by column block. The precondition makes
  every input entry a real number, so every sum, gate and candidate is real, and the two forms agree by
  distributing `u` over the difference.
-/
import proofs.«107161_j64596308132456_2_alg».proof.Defs
import proofs.«107161_j64596308132456_2_alg».proof.Proof.Gen.Kernel
import proofs.«107161_j64596308132456_2_alg».proof.Proof.Gen.KernelIdeal
import proofs.«107161_j64596308132456_2_alg».proof.Proof.Gen.ReferenceIdeal
import proofs.«107161_j64596308132456_2_alg».proof.Proof.Gen.Pre_finite_inputs
import proofs.«107161_j64596308132456_2_alg».proof.Proof.BitsFrame
import proofs.«107161_j64596308132456_2_alg».proof.Proof.IdealFrame
import proofs.«107161_j64596308132456_2_alg».proof.Proof.KernelBlocks
import proofs.«107161_j64596308132456_2_alg».proof.Proof.RefIsSpec
import proofs.«107161_j64596308132456_2_alg».proof.Proof.SpecAlgebra
import proofs.«107161_j64596308132456_2_alg».proof.Proof.PreFinite
import Idealize.ShloMosaic.Adequacy
import Idealize.ShloMosaic.Init

noncomputable section

namespace Cert.Proof

open Idealize.ShloMosaic Idealize.SL.Sem

/-- The word-level kernel program runs to the end and leaves its arguments unchanged. -/
theorem frame_k : Cert.frame_Kernel := fun m ρ _ => Cert.Kernel.Fr.frame m ρ

/-- So does the idealized kernel program. -/
theorem frame_ki : Cert.frame_KernelIdeal := fun m ρ _ => Cert.KernelIdeal.Fr.frame m ρ

/-- The reference is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments, the kernel's array ends at the fused form of the step and the reference's
    at the convex form; on real inputs the two forms are one function. -/
theorem algebraic : Cert.algebraic_KernelIdeal_ReferenceIdeal := by
  intro m ρ m' ρ' hpre hagree
  refine ⟨fun c => Cert.KernelIdeal.Blocks.G m c, Cert.KernelIdeal.Blocks.run m ρ, ?_⟩
  refine (θ_run Cert.ReferenceIdeal.defs _ _).mono (fun _ h c => ⟨(h c).1.trans ?_, (h c).2⟩)
    (Cert.ReferenceIdeal.RefValue.run_spec m' ρ')
  obtain ⟨e0, e1, e2, e3, e4, e5, e6, e7, e8, e9, e10, e11⟩ := hagree c
  rw [e0, e1, e2, e3, e4, e5, e6, e7, e8, e9, e10, e11]
  obtain ⟨f0, f1, f2, f3, f4, f5, f6, f7, f8, f9, f10, f11⟩ :=
    Cert.Pre_finite_inputs.Decode.finite_of_pre _ _ _ _ _ _ _ _ _ _ _ _ (hpre c)
  exact (funext fun i => Cert.Spec.stepFused_eq_stepConvex f0 f1 f2 f3 f4 f5 f6 f7 f8 f9 f10 f11 i).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
